-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S_ : Shape := ⟨0, ![]⟩
abbrev S16384 : Shape := ⟨1, ![16384]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S16384x16384_S16384_d1 : S16384x16384.ReducesTo [1] S16384
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : FVec F S16384x16384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : IVec S16384x16384 32 := iotaInDim S16384x16384 32 0
  let main_v20 : IVec S16384x16384 32 := iotaInDim S16384x16384 32 1
  let main_c_6 : IVec S_ 32 := constantI S_ 32 0#32
  let main_v21 : IVec S16384x16384 32 := broadcastInDim S16384x16384 ![] bcast_S_S16384x16384 main_c_6
  let main_v22 : IVec S16384x16384 32 := addi main_v19 main_v21
  let main_v23 : IVec S16384x16384 1 := cmpi .eq main_v22 main_v20
  let main_v24 : FVec F S16384x16384 .f32 := uitofp .f32 main_v23
  let main_v25 : FVec F S16384x16384 .f32 := addf main_arg1 main_v24
  let main_cst_7 : FVec F S_ .f32 := constant S_ .f32 0x00000000#32
  let main_v26 : FVec F S16384 .f32 := (fun x v => Host.reduceAdd x v reducesTo_S16384x16384_S16384_d1 h_S_) main_v25 main_cst_7
  let main_cst_8 : FVec F S_ .f32 := constant S_ .f32 0x00000000#32
  let main_v27 : FVec F S16384 .f32 := broadcastInDim S16384 ![] bcast_S_S16384 main_cst_8
  let main_v28 : IVec S16384 1 := cmpf .ogt main_v26 main_v27
  let main_c_9 : IVec S_ 1 := constantI S_ 1 1#1
  let main_v29 : IVec S_ 1 := (fun x v => Host.reduce IntOp.andi x v reducesTo_S16384_S_d0 h_S_) main_v28 main_c_9
  let main_v30 : IVec S_ 1 := andi main_v18 main_v29
  main_v30

def fn {F : FTy → Type} [FloatOps F] (main_arg0 : FVec F S16384x128 .f32) (main_arg1 : FVec F S16384x16384 .f32) (main_arg2 : FVec F S128x128 .f32) (main_arg3 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S16384x1 : Shape := ⟨2, ![16384, 1]⟩
abbrev S128x16384 : Shape := ⟨2, ![128, 16384]⟩
abbrev S128x1 : Shape := ⟨2, ![128, 1]⟩
abbrev S1x128 : Shape := ⟨2, ![1, 128]⟩
abbrev S1024x2048 : Shape := ⟨2, ![1024, 2048]⟩
abbrev S2048x128 : Shape := ⟨2, ![2048, 128]⟩
abbrev S1024x128 : Shape := ⟨2, ![1024, 128]⟩
abbrev S2048x1 : Shape := ⟨2, ![2048, 1]⟩
abbrev S1024x1 : Shape := ⟨2, ![1024, 1]⟩

abbrev nBuf : Space → Nat
  | .hbm => 8
  | .vmem => 18
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S16384x1, .f32⟩
  | .hbm, ⟨5, _⟩ => ⟨S16384x128, .f32⟩
  | .hbm, ⟨6, _⟩ => ⟨S1x128, .f32⟩
  | .hbm, ⟨7, _⟩ => ⟨S16384x128, .f32⟩
  | .local _ .vmem, ⟨0, _⟩ => ⟨S128x16384, .f32⟩
  | .local _ .vmem, ⟨1, _⟩ => ⟨S128x16384, .f32⟩
  | .local _ .vmem, ⟨2, _⟩ => ⟨S128x1, .f32⟩
  | .local _ .vmem, ⟨3, _⟩ => ⟨S128x1, .f32⟩
  | .local _ .vmem, ⟨4, _⟩ => ⟨S1024x2048, .f32⟩
  | .local _ .vmem, ⟨5, _⟩ => ⟨S1024x2048, .f32⟩
  | .local _ .vmem, ⟨6, _⟩ => ⟨S2048x128, .f32⟩
  | .local _ .vmem, ⟨7, _⟩ => ⟨S2048x128, .f32⟩
  | .local _ .vmem, ⟨8, _⟩ => ⟨S1024x128, .f32⟩
  | .local _ .vmem, ⟨9, _⟩ => ⟨S1024x128, .f32⟩
  | .local _ .vmem, ⟨10, _⟩ => ⟨S2048x1, .f32⟩
  | .local _ .vmem, ⟨11, _⟩ => ⟨S2048x1, .f32⟩
  | .local _ .vmem, ⟨12, _⟩ => ⟨S1024x1, .f32⟩
  | .local _ .vmem, ⟨13, _⟩ => ⟨S1024x1, .f32⟩
  | .local _ .vmem, ⟨14, _⟩ => ⟨S1x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_10 : BitVec 32 := 0#32
  let v20 : BitVec 1 := Scalar.cmpi .ne v19 c0_i32_10
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S128x16384_S128x16384_0_0 : ∀ a, (![0, 0] : Fin 2 → Nat) a + S128x16384.size a ≤ S128x16384.size a
  h_S128x16384 : 0 < S128x16384.numel
  reduces_S128x16384_S128 : S128x16384.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S2048x1_S2048x128 : S2048x1.Broadcasts S2048x128
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S16384x128_S128x128_S16384x128_1_0_0_1_n_n_wf : DotDims.WF S16384x128 S128x128 S16384x128 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S16384x16384.size a
  hwx0_0 : ∀ i : grid0.Coords, EltTy.bits .f32 = 32 ∨ (Rect.block (s := S16384x16384) S128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S16384x1.size a
  hwx0_1 : ∀ i : grid0.Coords, EltTy.bits .f32 = 32 ∨ (Rect.block (s := S16384x1) S128x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .f32 = 32 ∨ (Rect.block (s := S16384x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S16384x128.size a
  hwx1_2 : ∀ i : grid1.Coords, EltTy.bits .f32 = 32 ∨ (Rect.block (s := S16384x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S16384x1.size a
  hwx1_3 : ∀ i : grid1.Coords, EltTy.bits .f32 = 32 ∨ (Rect.block (s := S16384x1) S2048x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S16384x1.size a
  hwx1_4 : ∀ i : grid1.Coords, EltTy.bits .f32 = 32 ∨ (Rect.block (s := S16384x1) S1024x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S16384x128.size a
  hwx1_6 : ∀ i : grid1.Coords, EltTy.bits .f32 = 32 ∨ (Rect.block (s := S16384x128) S1024x128.size (cc1_transform_6 i) (hinb1_6 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg1) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S16384x16384, .i32⟩
  | .hbm, ⟨5, _⟩ => ⟨S16384x16384, .i32⟩
  | .hbm, ⟨6, _⟩ => ⟨S_, .i32⟩
  | .hbm, ⟨7, _⟩ => ⟨S16384x16384, .i32⟩
  | .hbm, ⟨8, _⟩ => ⟨S16384x16384, .i32⟩
  | .hbm, ⟨9, _⟩ => ⟨S16384x16384, .i1⟩
  | .hbm, ⟨10, _⟩ => ⟨S16384x16384, .f32⟩
  | .hbm, ⟨11, _⟩ => ⟨S16384x16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S16384x1, .f32⟩
  | .hbm, ⟨19, _⟩ => ⟨S16384x16384, .f32⟩
  | .hbm, ⟨20, _⟩ => ⟨S16384x16384, .f32⟩
  | .hbm, ⟨21, _⟩ => ⟨S1x16384, .f32⟩
  | .hbm, ⟨22, _⟩ => ⟨S16384x16384, .f32⟩
  | .hbm, ⟨23, _⟩ => ⟨S16384x16384, .f32⟩
  | .hbm, ⟨24, _⟩ => ⟨S16384x128, .f32⟩
  | .hbm, ⟨25, _⟩ => ⟨S16384x128, .f32⟩
  | .hbm, ⟨26, _⟩ => ⟨S1x128, .f32⟩
  | .hbm, ⟨27, _⟩ => ⟨S16384x128, .f32⟩
  | .hbm, ⟨28, _⟩ => ⟨S16384x128, .f32⟩
  | .hbm, ⟨29, _⟩ => ⟨S_, .f32⟩
  | .hbm, ⟨30, _⟩ => ⟨S16384x128, .f32⟩
  | .hbm, ⟨31, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_cst : Ref sig .tc := ⟨.hbm, 29, rfl⟩
abbrev main_call0_v0 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S16384x16384 : S_.BroadcastsInDim S16384x16384 (![] : Fin 0 → Fin S16384x16384.rank)
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  dot_S16384x128_S128x128_S16384x128_1_0_0_1_n_n_wf : DotDims.WF S16384x128 S128x128 S16384x128 [1] [0] [0] [1] [] []
  dot_S16384x16384_S16384x128_S16384x128_1_0_0_1_n_n_wf : DotDims.WF S16384x16384 S16384x128 S16384x128 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.R0Bits.lean ====
/- REGION 0 of @main, the first pallas_call (the row-sum kernel), for the word-level program, at any float instance.

   The grid has 128 points. Point t reads the 128×16384 block of the adjacency at rows 128·t … 128·t+127
   (window 0) and writes the 128×1 block of the degree vector at the same rows (window 1). The body loads the
   whole input block, computes one number per row — rsqrt (1 + the sum of the row) — and stores the 128×1
   result over the whole output block.

   This file states what each staging buffer holds after the body at every point (the proof data), proves the
   body's triple by running its memory operations, and discharges the pipeline's body obligation. What the numbers
   ARE is the business of the value file; here the payload stays a name. -/
import proofs.«150998_j28157805593140_2_alg».proof.Proof.Gen.Kernel.Launch
import proofs.«150998_j28157805593140_2_alg».proof.Proof.Gen.Kernel.Skeleton
import proofs.«150998_j28157805593140_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffers' contents when the region is entered
variable (V : (c : Dev nD) → (b : Ref sig .tc) → Buf (Elt F) ((c : Thread nD τ).loc b))

/-! ## The blocks the windows name -/

/-- The block of window w at grid point t, read from the window's array as it stands when the region starts. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds the point's block of the adjacency, whether or not the point
    fetched it — for any proof data over the entry contents whose body leaves the input buffer alone. The input
    window is not an output, is never idle and its blocks are not cut at the array's edge. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches -/

/-- The whole 128×16384 input block: the rectangle of the body's one load that matters. -/
abbrev rIn0 : Rect S128x16384 := Rect.unit (s := S128x16384) ![0, 0] S128x16384.size inb_S128x16384_S128x16384_0_0
/-- The whole 128×1 output block: the rectangle of the body's one store. -/
abbrev r0_0 : Rect S128x1 := Rect.unit (s := S128x1) ![0, 0] S128x1.size inb_S128x1_S128x1_0_0

/-! ## What the body leaves in the output buffer -/

/-- The output staging buffer after the body, as a function of the input block: the body's single store,
    whose payload is the kernel's pure computation over the loaded block. -/
def out0_1 (x0 : Vec F S128x16384 .f32) : Vec F S128x1 .f32 :=
  View.canon [⟨r0_0, k0_pay1 (View.ld x0 rIn0)⟩]

/-- The one store's rectangle is the whole 128×1 block, so every index of the buffer is written. -/
theorem cover0_1 (p0 : Vec F S128x1 .f32) (y : S128x1.Idx) :
    ∃ pc ∈ ([⟨r0_0, p0⟩] : List (View.Piece (Elt F) S128x1 .f32)), y ∈ pc.1.set :=
  View.cover_of_tiled [⟨r0_0, p0⟩] S128x1.size (by rfl) y

/-! ## The body's triple -/

set_option maxHeartbeats 1000000 in
/-- The body on whole staging memrefs — the input's at contents x0, the output's at anything — ends with the
    input's unchanged and the output's at out0_1 x0. The body is its skeleton of memory operations: a load of the
    input block, a load of the output block whose value is never used, and the store. -/
theorem sound_kernel0 (c : Dev nD) (E : Set ℕ) (i : grid0.Coords) (arg1 : Memref sig .tc .vmem S128x16384 .f32) (harg1 : arg1.IsWhole) (arg2 : Memref sig .tc .vmem S128x1 .f32) (harg2 : arg2.IsWhole)
    (x0 : Vec F S128x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__rowsum_kernel i arg1 harg1 arg2 harg2) K := by
  simp only [cc0__rowsum_kernel_eq_skeleton]; unfold cc0__rowsum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- The proof data of the pipeline on core c: the arrays as the region finds them; after the body at point t the
    input buffer still holds its block and the output buffer holds out0_1 of it; the invariant is the class's
    (the scoped rest and the generator register, untouched); full shares; nothing owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves in each window's buffer, the match on the window reduced. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point t: the invariant, the core's debts, and each window's current staging
    buffer at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it hands back: the same invariant and debts, and each buffer at the proof data's "after". -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input buffer holds the point's block, so the kernel's triple applies; the
    invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsR1Runs.lean ====
/-
  The second region (the aggregation kernel): what its proof is stated over.

  The grid has 16 × 8 points, point t = 8 i + k with k innermost. The body zeroes the accumulator at k = 0, adds
  the product of the adjacency tile and the column-scaled feature tile at every k, and at k = 7 writes the
  finished output tile. Hence three control cases: the first step of a row block, a middle step, the last step.
-/
import proofs.«150998_j28157805593140_2_alg».proof.Proof.Gen.Kernel.Launch
import proofs.«150998_j28157805593140_2_alg».proof.Proof.Gen.Kernel.Skeleton
import proofs.«150998_j28157805593140_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffers' contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the point fetched it or
    the block index stood still since the last fetch. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, in closed form over the grid -/

/-- "This is the first contraction step of the row block": k = 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last contraction step of the row block": k = 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

/-- Before the last step the body stores nothing into the output tile, and the tile is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last step it is live (and written back). -/
theorem liveAt1_6 : ∀ t : Fin cfg1.N, cond1_1 (grid1.coords t) → cfg1.idle 6 (grid1.coords t) = false := by decide +kernel

/-! ## The staging memrefs and the accumulator -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
/-- The accumulator: a whole scoped buffer of the kernel's own, carried from point to point. -/
abbrev scM1 : Memref sig .tc .vmem S1024x128 .f32 := Memref.whole cc1_scratch0
/-- Views through which the output tile's and the accumulator's contents are stated. -/
abbrev VO1 : View sig .tc .vmem S1024x128 .f32 := (Memref.whole cc1_stg6_0 : Memref sig .tc .vmem S1024x128 .f32).view
abbrev VS1 : View sig .tc .vmem S1024x128 .f32 := scM1.view

/-- The region's invariant before its first point, conjunct by conjunct: the first kernel's staging buffers (not this
    kernel's business) and the accumulator at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1 fullShare d)) ∗ (∃ r, prngReg c r)) := by
  unfold Pipeline.ΦA; rw [scopedRest1_eq]; simp only [scM1, owns_whole]; try rfl

end Cert.Kernel.Hand

end
-- ==== Proof.BitsR1RunA.lean ====
/-
  The aggregation kernel's body at the FIRST contraction step of a row block (k = 0): the accumulator is zeroed, then
  the first product is added into it. The output tile is not touched.
-/
import proofs.«150998_j28157805593140_2_alg».proof.Proof.BitsR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- What the body's stores leave in the accumulator, as pieces (last first), with the proof that on whole staging
    memrefs — the adjacency tile, the feature tile and the column scale at their contents, the accumulator at
    anything — the body runs to the continuation holding the inputs as they were and the accumulator with those pieces
    written. -/
noncomputable def kernelRun1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x2048 .f32) (x1 : Vec F S2048x128 .f32) (x3 : Vec F S2048x1 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg5 fullShare x3 ∗ (∃ d, owns (c : Thread nD τ) arg9 fullShare d)
            ∗ (iprop(owns (c : Thread nD τ) arg2 fullShare x0 ∗ owns (c : Thread nD τ) arg3 fullShare x1 ∗ owns (c : Thread nD τ) arg5 fullShare x3 ∗ (∃ f, arg9.view.loc (c : Thread nD τ) ↦[arg9.view.set]{fullShare} arg9.view.writes (Elt F) f LS)) -∗ K ⟨⟩))
          ⊢ wp frame (wpE (defs₀ (F := F)) Variants.none c none) E (cc1__adjmatmul_kernel i arg2 harg2 arg3 harg3 arg4 harg4 arg5 harg5 arg6 harg6 arg7 harg7 arg8 harg8 arg9 harg9) K } := by
  refine ⟨?_, fun E K => ?run⟩
  case run =>
    simp only [cc1__adjmatmul_kernel_eq_skeleton]; unfold cc1__adjmatmul_kernel_skel
    unfold owns
    iintro ⟨⟨%f0, %hf0, H0⟩, ⟨%f1, %hf1, H1⟩, ⟨%f3, %hf3, H3⟩, ⟨%ds, %fs, -, HS⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    iexists _; iexact HS

end Cert.Kernel.Hand

end
-- ==== Proof.BitsR1RunB.lean ====
/-
  The aggregation kernel's body at a MIDDLE contraction step (0 < k < 7): one more product is added into the
  accumulator, which holds what the step before left. The output tile is not touched.
-/
import proofs.«150998_j28157805593140_2_alg».proof.Proof.BitsR1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The accumulator's pieces after a middle step, with the body's triple: the accumulator goes in at the contents `xs`
    the step before left. -/
noncomputable def kernelRun1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x2048 .f32) (x1 : Vec F S2048x128 .f32) (x3 : Vec F S2048x1 .f32) (xs : Vec F S1024x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg9 fullShare xs
            ∗ (iprop(owns (c : Thread nD τ) arg2 fullShare x0 ∗ owns (c : Thread nD τ) arg3 fullShare x1 ∗ owns (c : Thread nD τ) arg5 fullShare x3 ∗ (∃ f, arg9.view.loc (c : Thread nD τ) ↦[arg9.view.set]{fullShare} arg9.view.writes (Elt F) f LS)) -∗ K ⟨⟩))
          ⊢ wp frame (wpE (defs₀ (F := F)) Variants.none c none) E (cc1__adjmatmul_kernel i arg2 harg2 arg3 harg3 arg4 harg4 arg5 harg5 arg6 harg6 arg7 harg7 arg8 harg8 arg9 harg9) K } := by
  refine ⟨?_, fun E K => ?run⟩
  case run =>
    simp only [cc1__adjmatmul_kernel_eq_skeleton]; unfold cc1__adjmatmul_kernel_skel
    unfold owns
    iintro ⟨⟨%f0, %hf0, H0⟩, ⟨%f1, %hf1, H1⟩, ⟨%f3, %hf3, H3⟩, ⟨%fs, %hfs, HS⟩, Hk⟩
    obtain rfl := harg2.eq_unread hf0; obtain rfl := harg3.eq_unread hf1; obtain rfl := harg5.eq_unread hf3; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    iexists _; iexact HS

end Cert.Kernel.Hand

end
-- ==== Proof.BitsR1RunC.lean ====
/-
  The aggregation kernel's body at the LAST contraction step of a row block (k = 7): the last product is added into the
  accumulator, then the self-loop term, the row scaling, the bias and the clamp at zero are applied and the finished tile is
  stored into the output window.
-/
import proofs.«150998_j28157805593140_2_alg».proof.Proof.BitsR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The output tile's and the accumulator's pieces after the last step, with the body's triple. -/
noncomputable def kernelRun1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S1024x128 .f32) (x3 : Vec F S2048x1 .f32) (x4 : Vec F S1024x1 .f32) (x5 : Vec F S1x128 .f32) (xs : Vec F S1024x128 .f32) :
    Σ' (L6 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS)) -∗ K ⟨⟩))
          ⊢ wp frame (wpE (defs₀ (F := F)) Variants.none c none) E (cc1__adjmatmul_kernel i arg2 harg2 arg3 harg3 arg4 harg4 arg5 harg5 arg6 harg6 arg7 harg7 arg8 harg8 arg9 harg9) K } := by
  refine ⟨?_, ?_, fun E K => ?run⟩
  case run =>
    simp only [cc1__adjmatmul_kernel_eq_skeleton]; unfold cc1__adjmatmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.Kernel.Hand

end
-- ==== Proof.BitsR1Frame.lean ====
/-
  The second region's proof data and body obligation.

  Point t = 8 i + k. After point t the accumulator holds the partial neighbour sum over the contraction blocks 0 … k of
  row block i; at k = 7 the output window's buffer holds the finished tile of row block i, which the pipeline writes
  back. `outsAt1` follows both through the grid by recursion on the point.
-/
import proofs.«150998_j28157805593140_2_alg».proof.Proof.BitsR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves -/

/-- The output window's buffer where no case stores into it (before the last step of a row block): a value nothing
    reads — at those points the window is neither written back nor read at the next point. -/
def unwritten : Vec F S1024x128 .f32 := VO1.read (Elt F) VO1.junk

/-- The accumulator after the first step of a row block: the run's pieces read back. -/
def soutA (c : Dev nD) (t : Fin cfg1.N) (hc0 : cond1_0 (grid1.coords t)) (hc1 : ¬cond1_1 (grid1.coords t)) : Vec F S1024x128 .f32 :=
  VS1.read (Elt F) (VS1.writes (Elt F) VS1.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 3 t)).1)
theorem scoverA (c : Dev nD) (t : Fin cfg1.N) (hc0 : cond1_0 (grid1.coords t)) (hc1 : ¬cond1_1 (grid1.coords t)) (y : S1024x128.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 3 t)).1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 3 t)).1 S1024x128.size (by sl_kernel_rfl) y

/-- The accumulator after a middle step, from what the step before left (`xs`). -/
def soutB (c : Dev nD) (t : Fin cfg1.N) (hc0 : ¬cond1_0 (grid1.coords t)) (hc1 : ¬cond1_1 (grid1.coords t)) (xs : Vec F S1024x128 .f32) : Vec F S1024x128 .f32 :=
  VS1.read (Elt F) (VS1.writes (Elt F) VS1.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 3 t) xs).1)
theorem scoverB (c : Dev nD) (t : Fin cfg1.N) (hc0 : ¬cond1_0 (grid1.coords t)) (hc1 : ¬cond1_1 (grid1.coords t)) (xs : Vec F S1024x128 .f32) (y : S1024x128.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 3 t) xs).1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 3 t) xs).1 S1024x128.size (by sl_kernel_rfl) y

/-- The output tile and the accumulator after the last step. -/
def outC (c : Dev nD) (t : Fin cfg1.N) (hc0 : ¬cond1_0 (grid1.coords t)) (hc1 : cond1_1 (grid1.coords t)) (xs : Vec F S1024x128 .f32) : Vec F S1024x128 .f32 :=
  VO1.read (Elt F) (VO1.writes (Elt F) VO1.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) (iblk1 V c 5 t) xs).1)
theorem coverC (c : Dev nD) (t : Fin cfg1.N) (hc0 : ¬cond1_0 (grid1.coords t)) (hc1 : cond1_1 (grid1.coords t)) (xs : Vec F S1024x128 .f32) (y : S1024x128.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) (iblk1 V c 5 t) xs).1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) (iblk1 V c 5 t) xs).1 S1024x128.size (by sl_kernel_rfl) y
def soutC (c : Dev nD) (t : Fin cfg1.N) (hc0 : ¬cond1_0 (grid1.coords t)) (hc1 : cond1_1 (grid1.coords t)) (xs : Vec F S1024x128 .f32) : Vec F S1024x128 .f32 :=
  VS1.read (Elt F) (VS1.writes (Elt F) VS1.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) (iblk1 V c 5 t) xs).2.1)
theorem scoverC (c : Dev nD) (t : Fin cfg1.N) (hc0 : ¬cond1_0 (grid1.coords t)) (hc1 : cond1_1 (grid1.coords t)) (xs : Vec F S1024x128 .f32) (y : S1024x128.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) (iblk1 V c 5 t) xs).2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) (iblk1 V c 5 t) xs).2.1 S1024x128.size (by sl_kernel_rfl) y

/-! ## The accumulation through the grid -/

/-- What the output window's buffer and the accumulator hold after the body at position n (a pair): the case the closed
    forms select, run at the point's blocks, the accumulator taken from position n - 1 unless the case resets it. -/
def outsAt1 (c : Dev nD) : (n : ℕ) → n < cfg1.N → Vec F S1024x128 .f32 × Vec F S1024x128 .f32
  | 0, hn => (unwritten, soutA V c ⟨0, hn⟩ ((hcond1_0 ⟨0, hn⟩).mpr (Nat.zero_mod _)) (fun h => (fun h => by (try dsimp only at h); omega) ((hcond1_1 ⟨0, hn⟩).mp h)))
  | n + 1, hn =>
    if h0 : (n + 1) % 8 = 0 then
      (unwritten, soutA V c ⟨n + 1, hn⟩ ((hcond1_0 ⟨n + 1, hn⟩).mpr h0) (fun h => (fun h => by (try dsimp only at h); omega) ((hcond1_1 ⟨n + 1, hn⟩).mp h)))
    else
      if h1 : (n + 1) % 8 = 7 then
        (outC V c ⟨n + 1, hn⟩ (fun h => h0 ((hcond1_0 ⟨n + 1, hn⟩).mp h)) ((hcond1_1 ⟨n + 1, hn⟩).mpr h1) (outsAt1 c n (Nat.lt_of_succ_lt hn)).2,
         soutC V c ⟨n + 1, hn⟩ (fun h => h0 ((hcond1_0 ⟨n + 1, hn⟩).mp h)) ((hcond1_1 ⟨n + 1, hn⟩).mpr h1) (outsAt1 c n (Nat.lt_of_succ_lt hn)).2)
      else
        (unwritten, soutB V c ⟨n + 1, hn⟩ (fun h => h0 ((hcond1_0 ⟨n + 1, hn⟩).mp h)) (fun h => h1 ((hcond1_1 ⟨n + 1, hn⟩).mp h)) (outsAt1 c n (Nat.lt_of_succ_lt hn)).2)

theorem outsAt1_A (c : Dev nD) (t : Fin cfg1.N) (h0 : t.val % 8 = 0) :
    outsAt1 V c t.val t.isLt = (unwritten, soutA V c t ((hcond1_0 t).mpr h0) (fun h => (fun h => by omega) ((hcond1_1 t).mp h))) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = (unwritten, soutB V c t (fun h => h0 ((hcond1_0 t).mp h)) (fun h => h1 ((hcond1_1 t).mp h))
      (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (outC V c t (fun h => h0 ((hcond1_0 t).mp h)) ((hcond1_1 t).mpr h1) (outsAt1 V c (t.val - 1) (Nat.lt_of_le_of_lt (Nat.sub_le _ _) t.isLt)).2,
      soutC V c t (fun h => h0 ((hcond1_0 t).mp h)) ((hcond1_1 t).mpr h1) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The region's invariant with the accumulator described by `S`: the first kernel's staging buffers at anything,
    the accumulator as `S` says, the generator register at some state. -/
def PhiWith (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ S) ∗ (∃ r, prngReg c r))

theorem PhiA1_with (c : Dev nD) : (Pipeline.ΦA spec1 c : sProp 𝕄) = PhiWith c iprop(∃ d, owns (c : Thread nD τ) scM1 fullShare d) := by
  rw [PhiA1_eq]; rfl

/-- Before position 0 the accumulator holds anything; before position n + 1 what position n left in it. -/
def PhiS1 (c : Dev nD) : (n : ℕ) → n ≤ cfg1.N → sProp 𝕄
  | 0, _ => Pipeline.ΦA spec1 c
  | n + 1, hn => PhiWith c (owns (c : Thread nD τ) scM1 fullShare ((outsAt1 V c n hn).2))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = PhiWith c (owns (c : Thread nD τ) scM1 fullShare ((outsAt1 V c n hn).2)) := rfl
theorem PhiS1_pos (c : Dev nD) (n : ℕ) (h : n ≤ cfg1.N) (hz : n ≠ 0) :
    PhiS1 V c n h = PhiWith c (owns (c : Thread nD τ) scM1 fullShare ((outsAt1 V c (n - 1) (by omega)).2)) := by
  cases n with
  | zero => exact absurd rfl hz
  | succ n => rfl

/-! ## The proof data -/

/-- The second region's proof data on core c: the arrays as the region finds them; after the body each input's buffer
    at its block and the output's at `outsAt1`; the invariant above; nothing owed. The feature matrix and the degree
    scale are each read through two windows, which hold one half of the array each. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q w := match w with
    | ⟨0, _⟩ => fullShare
    | ⟨1, _⟩ => PosShare.left fullShare
    | ⟨2, _⟩ => PosShare.right fullShare
    | ⟨3, _⟩ => PosShare.left fullShare
    | ⟨4, _⟩ => PosShare.right fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point t: the invariant, the core owing nothing, every window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem leaves1_0 (c : Dev nD) (t : Fin cfg1.N) : (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from rfl, after1_0]
theorem leaves1_1 (c : Dev nD) (t : Fin cfg1.N) : (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from rfl, after1_1]
theorem leaves1_2 (c : Dev nD) (t : Fin cfg1.N) : (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from rfl, after1_2]
theorem leaves1_3 (c : Dev nD) (t : Fin cfg1.N) : (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from rfl, after1_3]
theorem leaves1_4 (c : Dev nD) (t : Fin cfg1.N) : (dat1 V c).leavesExact 4 t = owns (c : Thread nD τ) (ms1_4 t) fullShare (iblk1 V c 4 t) := by
  rw [show (dat1 V c).leavesExact 4 t = owns (c : Thread nD τ) (ms1_4 t) fullShare ((dat1 V c).after 4 t) from rfl, after1_4]
theorem leaves1_5 (c : Dev nD) (t : Fin cfg1.N) : (dat1 V c).leavesExact 5 t = owns (c : Thread nD τ) (ms1_5 t) fullShare (iblk1 V c 5 t) := by
  rw [show (dat1 V c).leavesExact 5 t = owns (c : Thread nD τ) (ms1_5 t) fullShare ((dat1 V c).after 5 t) from rfl, after1_5]

set_option maxHeartbeats 8000000 in
/-- The body at any point: the closed forms say which case the point is in; the inputs' buffers hold their blocks; the
    invariant hands the body the accumulator at what the point before left (at anything before the first point) and takes
    it back at this point's contents; a case that does not store into the output tile hands its buffer back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, leaves1_0, leaves1_1, leaves1_2, leaves1_3, leaves1_4, leaves1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6 t hc1) (noFlush1_6 t hc1)]
    rw [outsAt1_A V c t h0]
    unfold soutA; (try dsimp only)
    by_cases hz : t.val = 0
    · rw [PhiS1_castSucc V c t, PhiS1_zero V c _ _ hz, PhiA1_with]; unfold PhiWith
      iintro ⟨⟨⟨HR0, HR1, HR2, HR3, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ hc0 hc1 (iblk1 V c 0 t) (iblk1 V c 1 t) (iblk1 V c 3 t)).2 Set.univ _)
      isplitl [H0]; · iexact H0
      isplitl [H1]; · iexact H1
      isplitl [H3]; · iexact H3
      isplitl [HS]; · iexact HS
      iintro ⟨H0, H1, H3, ⟨%es, HS⟩⟩
      isplitl [HR0 HR1 HR2 HR3 HS Hg]
      · isplitl [HR0 HR1 HR2 HR3 HS]
        · isplitl [HR0]; · iexact HR0
          isplitl [HR1]; · iexact HR1
          isplitl [HR2]; · iexact HR2
          isplitl [HR3]; · iexact HR3
          unfold owns; iexists _; isplitr
          swap; · iexact HS
          ipureintro; exact View.read_writes_of_cover _ _ _ _ _ (scoverA V c t hc0 hc1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]; unfold PhiWith
      iintro ⟨⟨⟨HR0, HR1, HR2, HR3, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ hc0 hc1 (iblk1 V c 0 t) (iblk1 V c 1 t) (iblk1 V c 3 t)).2 Set.univ _)
      isplitl [H0]; · iexact H0
      isplitl [H1]; · iexact H1
      isplitl [H3]; · iexact H3
      isplitl [HS]; · iexists _; iexact HS
      iintro ⟨H0, H1, H3, ⟨%es, HS⟩⟩
      isplitl [HR0 HR1 HR2 HR3 HS Hg]
      · isplitl [HR0 HR1 HR2 HR3 HS]
        · isplitl [HR0]; · iexact HR0
          isplitl [HR1]; · iexact HR1
          isplitl [HR2]; · iexact HR2
          isplitl [HR3]; · iexact HR3
          unfold owns; iexists _; isplitr
          swap; · iexact HS
          ipureintro; exact View.read_writes_of_cover _ _ _ _ _ (scoverA V c t hc0 hc1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · by_cases h1 : t.val % 8 = 7
    · have hc0 : ¬cond1_0 (grid1.coords t) := fun h => h0 ((hcond1_0 t).mp h)
      have hc1 : cond1_1 (grid1.coords t) := (hcond1_1 t).mpr h1
      rw [show (dat1 V c).leavesExact 6 t = owns (c : Thread nD τ) (ms1_6 t) fullShare ((dat1 V c).after 6 t) from by
        unfold Dat.leavesExact; rw [liveAt1_6 t hc1], after1_6]
      rw [outsAt1_C V c t h0 h1]
      unfold outC soutC; (try dsimp only)
      have hz : t.val ≠ 0 := by omega
      rw [PhiS1_castSucc V c t, PhiS1_pos V c _ _ hz]; unfold PhiWith
      iintro ⟨⟨⟨HR0, HR1, HR2, HR3, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HR0 HR1 HR2 HR3 HS Hg]
      · isplitl [HR0 HR1 HR2 HR3 HS]
        · isplitl [HR0]; · iexact HR0
          isplitl [HR1]; · iexact HR1
          isplitl [HR2]; · iexact HR2
          isplitl [HR3]; · iexact HR3
          unfold owns; iexists _; isplitr
          swap; · iexact HS
          ipureintro; exact View.read_writes_of_cover _ _ _ _ _ (scoverC V c t hc0 hc1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC V c t hc0 hc1 _)
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 6 t (idleAt1_6 t hc1) (noFlush1_6 t hc1)]
      rw [outsAt1_B V c t h0 h1]
      unfold soutB; (try dsimp only)
      have hz : t.val ≠ 0 := by omega
      rw [PhiS1_castSucc V c t, PhiS1_pos V c _ _ hz]; unfold PhiWith
      iintro ⟨⟨⟨HR0, HR1, HR2, HR3, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ hc0 hc1 (iblk1 V c 0 t) (iblk1 V c 1 t) (iblk1 V c 3 t) _).2 Set.univ _)
      isplitl [H0]; · iexact H0
      isplitl [H1]; · iexact H1
      isplitl [H3]; · iexact H3
      isplitl [HS]; · iexact HS
      iintro ⟨H0, H1, H3, ⟨%es, HS⟩⟩
      isplitl [HR0 HR1 HR2 HR3 HS Hg]
      · isplitl [HR0 HR1 HR2 HR3 HS]
        · isplitl [HR0]; · iexact HR0
          isplitl [HR1]; · iexact HR1
          isplitl [HR2]; · iexact HR2
          isplitl [HR3]; · iexact HR3
          unfold owns; iexists _; isplitr
          swap; · iexact HS
          ipureintro; exact View.read_writes_of_cover _ _ _ _ _ (scoverB V c t hc0 hc1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back, the accumulator's contents forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ hne, PhiA1_with]
  unfold PhiWith
  iintro ⟨⟨HR0, HR1, HR2, HR3, HS⟩, Hg⟩
  isplitl [HR0 HR1 HR2 HR3 HS]
  · isplitl [HR0]; · iexact HR0
    isplitl [HR1]; · iexact HR1
    isplitl [HR2]; · iexact HR2
    isplitl [HR3]; · iexact HR3
    iexists _; iexact HS
  iexact Hg

end Cert.Kernel.Hand

end
-- ==== Proof.BitsRunAll.lean ====
/-
  The kernel program's run: region 0 (degree scale), the host stretch (X · W and the bias as a row), region 1
  (aggregation), composed. Between two items every unscoped buffer is held whole at a named valuation:
  W0 the launch contents, W1 after region 0 (the degree-scale array at what its write-backs leave), W2 after the host
  stretch, W3 after region 1 (the result array at what its write-backs leave). The run ends with every unscoped buffer
  at W3; the frame (arguments unchanged) and the result's value are read off it.
-/
import proofs.«150998_j28157805593140_2_alg».proof.Proof.R0Bits
import proofs.«150998_j28157805593140_2_alg».proof.Proof.BitsR1Frame
import proofs.«150998_j28157805593140_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at the segment boundaries -/

/-- At launch (region 0's entry), read at the TensorCore's references. -/
abbrev VA : (c : Dev nD) → (b : Ref sig .tc) → Buf (Elt F) ((c : Thread nD τ).loc b) := fun c b => Gen.V0 m c b
/-- What region 0's write-backs leave in the degree-scale array. -/
def X0 (c : Dev nD) : Buf (Elt F) ((c : Thread nD τ).loc main_v0) := (dat0 (VA m) c).arrAt 1 cfg0.N
/-- After region 0. -/
def W1 (c : Dev nD) : Valuation τ sig (Elt F) := Function.update (Gen.V0 m c) main_v0 (X0 m c)
/-- After the host stretch (region 1's entry). -/
def W2 (c : Dev nD) : Valuation τ sig (Elt F) := StableHlo.after hostOps1 (W1 m c)
abbrev VB : (c : Dev nD) → (b : Ref sig .tc) → Buf (Elt F) ((c : Thread nD τ).loc b) := fun c b => W2 m c b
/-- What region 1's write-backs leave in the result array. -/
def X3 (c : Dev nD) : Buf (Elt F) ((c : Thread nD τ).loc main_v3) := (dat1 (VB m) c).arrAt 6 cfg1.N
/-- After region 1. -/
def W3 (c : Dev nD) : Valuation τ sig (Elt F) := Function.update (W2 m c) main_v3 (X3 m c)

theorem W1_same (c : Dev nD) : W1 m c main_v0 = X0 m c := by unfold W1; exact Function.update_self _ _ _
theorem W1_of (c : Dev nD) (r : Ref sig .tc) (h : r ≠ main_v0) : W1 m c r = Gen.V0 m c r := by
  unfold W1; exact Function.update_of_ne (StableHlo.devRef_ne_of_ne h) _ _
theorem W2_of (c : Dev nD) (r : Ref sig .tc) (h : r ∉ Gen.hostOps1_W) : W2 m c r = W1 m c r :=
  StableHlo.after_of_writes_sub hostOps1 _ Gen.hostOps1_writes h
theorem W3_same (c : Dev nD) : W3 m c main_v3 = X3 m c := by unfold W3; exact Function.update_self _ _ _
theorem W3_of (c : Dev nD) (r : Ref sig .tc) (h : r ≠ main_v3) : W3 m c r = W2 m c r := by
  unfold W3; exact Function.update_of_ne (StableHlo.devRef_ne_of_ne h) _ _

/-- No item writes an argument. -/
theorem W3_arg (c : Dev nD) (r : Ref sig .tc) (h3 : r ≠ main_v3) (h2 : r ∉ Gen.hostOps1_W) (h0 : r ≠ main_v0) :
    W3 m c r = m ((c : Thread nD τ).loc r) :=
  (W3_of m c r h3).trans ((W2_of m c r h2).trans ((W1_of m c r h0).trans rfl))

/-! ## The proof data family and what rides beside the buffers -/

def pdats : (p : Fin 2) → (c : Dev nD) → Dat τ (Elt F) Unit ℕ (Pipeline.UD sig nD τ) ℕ (cfgs p) c
  | ⟨0, _⟩ => fun c => dat0 (VA m) c
  | ⟨1, _⟩ => fun c => dat1 (VB m) c

abbrev 𝒱₀ : Variants := Variants.none
abbrev L : GSem nD τ sig → Finset Unit := fun _ => ∅
abbrev lv : GSem nD τ sig → Unit → ℕ := fun _ _ => 0
/-- The generator register at some state and the core owing nothing. -/
abbrev Rr (c : Dev nD) : sProp 𝕄 := iprop((∃ r, prngReg c r) ∗ ∃ W, owes (c : Thread nD τ) (0 : CellTallies nD τ sig Unit) W)

/-! ## Region 1's arrays, window by window

The feature matrix (main_v1) is read through windows 1 and 2 and the degree scale (main_v0) through windows 3 and 4:
each of the two windows holds one half of the array. -/

theorem arrays1_of (V : (c : Dev nD) → (b : Ref sig .tc) → Buf (Elt F) ((c : Thread nD τ).loc b)) (c : Dev nD)
    (G : (w : Fin cfg1.W) → Buf (Elt F) ((cfg1.win w).arr.view.loc (c : Thread nD τ)))
    (g0 : Buf (Elt F) ((c : Thread nD τ).loc main_arg1)) (g1 g2 : Buf (Elt F) ((c : Thread nD τ).loc main_v1)) (g3 g4 : Buf (Elt F) ((c : Thread nD τ).loc main_v0))
    (g5 : Buf (Elt F) ((c : Thread nD τ).loc main_v2)) (g6 : Buf (Elt F) ((c : Thread nD τ).loc main_v3))
    (h0 : G 0 = g0) (h1 : G 1 = g1) (h2 : G 2 = g2) (h3 : G 3 = g3) (h4 : G 4 = g4) (h5 : G 5 = g5) (h6 : G 6 = g6) :
    ((dat1 V c).arrays G : sProp 𝕄)
      = iprop((((c : Thread nD τ).loc main_arg1) ↦{fullShare} g0) ∗ (((c : Thread nD τ).loc main_v1) ↦{PosShare.left fullShare} g1) ∗ (((c : Thread nD τ).loc main_v1) ↦{PosShare.right fullShare} g2)
          ∗ (((c : Thread nD τ).loc main_v0) ↦{PosShare.left fullShare} g3) ∗ (((c : Thread nD τ).loc main_v0) ↦{PosShare.right fullShare} g4)
          ∗ (((c : Thread nD τ).loc main_v2) ↦{fullShare} g5) ∗ (((c : Thread nD τ).loc main_v3) ↦{fullShare} g6)) := by
  subst h0 h1 h2 h3 h4 h5 h6
  unfold Dat.arrays
  rw [show (bigSep Finset.univ fun w : Fin cfg1.W => ((cfg1.win w).arr.view.loc (c : Thread nD τ) ↦[(cfg1.win w).arr.view.set]{(dat1 V c).share w} G w : sProp 𝕄))
        = bigSep Finset.univ fun w : Fin cfg1.W => ((cfg1.win w).arr.view.loc (c : Thread nD τ) ↦{(dat1 V c).share w} G w : sProp 𝕄) from
        bigSep_congr fun w _ => by rw [(arr_whole1 w).set_eq_univ]]
  rw [bigSep_W1]; rfl

/-- The buffers behind region 1's arrays, one by one. -/
theorem arrBufs1_eq (c : Dev nD) (V : (b : Ref sig .tc) → Buf (Elt F) ((c : Thread nD τ).loc b)) :
    (Pipeline.arrBufs (Ix := Unit) (Name := ℕ) (U := Pipeline.UD sig nD τ) (Lvl := ℕ) spec1 c V : sProp 𝕄)
      = iprop((((c : Thread nD τ).loc main_arg1) ↦{fullShare} V main_arg1) ∗ (((c : Thread nD τ).loc main_v1) ↦{fullShare} V main_v1) ∗ (((c : Thread nD τ).loc main_v0) ↦{fullShare} V main_v0)
          ∗ (((c : Thread nD τ).loc main_v2) ↦{fullShare} V main_v2) ∗ (((c : Thread nD τ).loc main_v3) ↦{fullShare} V main_v3)) := by
  unfold Pipeline.arrBufs
  rw [BI.bigSep_eq_bigSepL_of_eq [main_arg1, main_v1, main_v0, main_v2, main_v3] (by decide) (by decide)]; rfl

/-- A core's unscoped buffers are the buffers behind region 1's arrays and the three it does not touch. -/
theorem held_split1 (c : Dev nD) (Wv : Valuation τ sig (Elt F)) :
    (StableHlo.held (c : Thread nD τ) (Pipeline.ucRefs τ sig) Wv : sProp 𝕄)
      = iprop(Pipeline.arrBufs spec1 c (fun b => Wv b) ∗ Pipeline.unscopedRest spec1 c (fun b => Wv b)) := by
  rw [← Pipeline.unscopedBufs_held]
  exact Pipeline.unscopedBufs_split₀ cfgs 1 winFacts₀1.arr_unscoped c (fun b => Wv b)

/-! ## The regions as segments -/

set_option backward.isDefEq.respectTransparency.types false in
/-- REGION 0: entered from every unscoped buffer at the launch contents, left at W1. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V0 m c) ∗ Rr c)
  post c := iprop(StableHlo.held (c : Thread nD τ) (Pipeline.ucRefs τ sig) (W1 m c) ∗ Rr c)
  X c := iprop(∃ r, prngReg c r)
  Y c := iprop(∃ r, prngReg c r)
  Z c := Pipeline.unscopedRest (Ix := Unit) (Name := ℕ) (U := Pipeline.UD sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (VA m c) (fun b => W1 m c b) ((pdats m 0 c).arrAt · cfg0.N)
      (fun w => by
        match w with
        | ⟨0, _⟩ => exact (((dat0 (VA m) c).arrAt_in 0 rfl _).trans (A_eq0 (VA m) c 0)).trans (W1_of m c main_arg1 (by decide)).symm
        | ⟨1, _⟩ => exact (W1_same m c).symm)
      (fun b hb => W1_of m c b fun e => hb (Finset.mem_image.mpr ⟨1, Finset.mem_univ _, e.symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1's entry: the arrays split out of the unscoped buffers, the two shared ones into halves. -/
theorem entry1 (c : Dev nD) :
    iprop(iprop(StableHlo.held (c : Thread nD τ) (Pipeline.ucRefs τ sig) (W2 m c) ∗ Rr c) ∗ Pipeline.ownSems0 (Ix := Unit) (Name := ℕ) (U := Pipeline.UD sig nD τ) (Lvl := ℕ) (Val := Elt F) (τ := τ) (fun k : PEmpty => k.elim) c ∗ levAts L lv)
      ⊢ |={Set.univ}=> (iprop((dat1 (VB m) c).arrays ((dat1 (VB m) c).arrAt · 0) ∗ Pipeline.prefHeld (pcfgs (F := F) 1).pre c (fun _ => fullShare) (Gen.adm (F := F) 1).1
          ∗ (dat1 (VB m) c).owesAt () 0 ∗ iprop(∃ r, prngReg c r) ∗ Pipeline.unscopedRest (Ix := Unit) (Name := ℕ) (U := Pipeline.UD sig nD τ) (Lvl := ℕ) spec1 c (VB m c)) : sProp 𝕄) := by
  rw [Pipeline.ownSems0_none, held_split1, arrBufs1_eq,
    arrays1_of (VB m) c ((dat1 (VB m) c).arrAt · 0) (VB m c main_arg1) (VB m c main_v1) (VB m c main_v1) (VB m c main_v0) (VB m c main_v0) (VB m c main_v2) (VB m c main_v3)
      (A_eq1 (VB m) c 0) (A_eq1 (VB m) c 1) (A_eq1 (VB m) c 2) (A_eq1 (VB m) c 3) (A_eq1 (VB m) c 4) (A_eq1 (VB m) c 5) (A_eq1 (VB m) c 6)]
  iintro ⟨⟨⟨⟨Ha1, Hv1, Hv0, Hv2, Hv3⟩, Hrest⟩, Hp, HO⟩, -, -⟩
  ihave Hv1' := (pointsTo_share (PosShare.mem_left_op_right fullShare)).1 $$ Hv1
  icases Hv1' with ⟨Hv1a, Hv1b⟩
  ihave Hv0' := (pointsTo_share (PosShare.mem_left_op_right fullShare)).1 $$ Hv0
  icases Hv0' with ⟨Hv0a, Hv0b⟩
  imodintro
  isplitl [Ha1 Hv1a Hv1b Hv0a Hv0b Hv2 Hv3]
  · isplitl [Ha1]; · iexact Ha1
    isplitl [Hv1a]; · iexact Hv1a
    isplitl [Hv1b]; · iexact Hv1b
    isplitl [Hv0a]; · iexact Hv0a
    isplitl [Hv0b]; · iexact Hv0b
    isplitl [Hv2]; · iexact Hv2
    iexact Hv3
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitl [Hp]; · iexact Hp
  iexact Hrest

theorem in1 (c : Dev nD) :
    iprop(iprop(∃ r, prngReg c r) ∗ Pipeline.prefHeld (pcfgs (F := F) 1).pre c (fun _ => fullShare) (Gen.adm (F := F) 1).1 ∗ Pipeline.scopedRest (Ix := Unit) (Name := ℕ) (U := Pipeline.UD sig nD τ) (Lvl := ℕ) (Val := Elt F) spec1 c)
      ⊢ ((dat1 (VB m) c).Φ 0 : sProp 𝕄) := by
  iintro ⟨Hp, -, Hr⟩
  iapply (hin1 (VB m) c)
  unfold Pipeline.ΦA
  isplitl [Hr]; · iexact Hr
  iexact Hp

theorem out1 (c : Dev nD) :
    ((dat1 (VB m) c).Φ (Fin.last cfg1.N) : sProp 𝕄)
      ⊢ iprop(iprop(∃ r, prngReg c r) ∗ Pipeline.ownSems0 (Ix := Unit) (Name := ℕ) (U := Pipeline.UD sig nD τ) (Lvl := ℕ) (Val := Elt F) (τ := τ) (fun k : PEmpty => k.elim) c ∗ Pipeline.scopedRest (Ix := Unit) (Name := ℕ) (U := Pipeline.UD sig nD τ) (Lvl := ℕ) (Val := Elt F) spec1 c) := by
  rw [Pipeline.ownSems0_none]
  iintro H
  ihave H' := (hout1 (VB m) c) $$ H
  unfold Pipeline.ΦA
  icases H' with ⟨Hr, Hp⟩
  isplitl [Hp]; · iexact Hp
  isplitr; · iempintro
  iexact Hr

set_option backward.isDefEq.respectTransparency.types false in
/-- Region 1's exit: the halves joined, every unscoped buffer at W3. -/
theorem exit1 (c : Dev nD) :
    iprop((dat1 (VB m) c).arrays ((dat1 (VB m) c).arrAt · cfg1.N) ∗ (dat1 (VB m) c).owesAt () (Fin.last cfg1.N) ∗ iprop(∃ r, prngReg c r) ∗ Pipeline.unscopedRest (Ix := Unit) (Name := ℕ) (U := Pipeline.UD sig nD τ) (Lvl := ℕ) spec1 c (VB m c))
      ⊢ |={Set.univ}=> (iprop(iprop(StableHlo.held (c : Thread nD τ) (Pipeline.ucRefs τ sig) (W3 m c) ∗ ∃ r, prngReg c r) ∗ ∃ W, owes (c : Thread nD τ) (0 : CellTallies nD τ sig Unit) W) : sProp 𝕄) := by
  rw [held_split1, arrBufs1_eq, Gen.unscopedRest1_eq c (fun b => W3 m c b), Gen.unscopedRest1_eq c (VB m c),
    arrays1_of (VB m) c ((dat1 (VB m) c).arrAt · cfg1.N) (VB m c main_arg1) (VB m c main_v1) (VB m c main_v1) (VB m c main_v0) (VB m c main_v0) (VB m c main_v2) (X3 m c)
      (((dat1 (VB m) c).arrAt_in 0 rfl _).trans (A_eq1 (VB m) c 0)) (((dat1 (VB m) c).arrAt_in 1 rfl _).trans (A_eq1 (VB m) c 1))
      (((dat1 (VB m) c).arrAt_in 2 rfl _).trans (A_eq1 (VB m) c 2)) (((dat1 (VB m) c).arrAt_in 3 rfl _).trans (A_eq1 (VB m) c 3))
      (((dat1 (VB m) c).arrAt_in 4 rfl _).trans (A_eq1 (VB m) c 4)) (((dat1 (VB m) c).arrAt_in 5 rfl _).trans (A_eq1 (VB m) c 5)) rfl,
    W3_of m c main_arg1 (by decide), W3_of m c main_v1 (by decide), W3_of m c main_v0 (by decide), W3_of m c main_v2 (by decide), W3_same m c,
    W3_of m c main_arg0 (by decide), W3_of m c main_arg2 (by decide), W3_of m c main_arg3 (by decide)]
  iintro ⟨⟨Ha1, Hv1a, Hv1b, Hv0a, Hv0b, Hv2, Hv3⟩, HO, HY, Hrest⟩
  ihave Hv1 := (pointsTo_share (PosShare.mem_left_op_right fullShare)).2 $$ [Hv1a Hv1b]
  · isplitl [Hv1a] <;> iassumption
  ihave Hv0 := (pointsTo_share (PosShare.mem_left_op_right fullShare)).2 $$ [Hv0a Hv0b]
  · isplitl [Hv0a] <;> iassumption
  imodintro
  isplitr [HO]
  · isplitr [HY]
    · isplitr [Hrest]
      · isplitl [Ha1]; · iexact Ha1
        isplitl [Hv1]; · iexact Hv1
        isplitl [Hv0]; · iexact Hv0
        isplitl [Hv2]; · iexact Hv2
        iexact Hv3
      · iexact Hrest
    · iexact HY
  · unfold Pipeline.Dat.owesAt Pipeline.owesWithin
    icases HO with ⟨%W, -, HO⟩; iexists W; iexact HO

set_option backward.isDefEq.respectTransparency.types false in
/-- REGION 1: entered from every unscoped buffer at W2, left at W3. The two arrays read through two windows each are
    split into halves at the entry and joined again at the exit. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(iprop(StableHlo.held (c : Thread nD τ) (Pipeline.ucRefs τ sig) (W3 m c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (VB m c)
  hentry c := entry1 m c
  hin c := in1 m c
  hout c := out1 m c
  hexit c := exit1 m c

/-! ## @main as segments, and the run -/

/-- The host stretch between the regions as a segment over the unscoped buffers from W1. -/
abbrev hseg : Pipeline.HostSeg (Name := ℕ) (U := Pipeline.UD sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp Gen.hostOps1_fresh) op h) (W1 m) Rr

abbrev segsH : List (Pipeline.Seg (pcfgs (F := F)) Gen.adm (pdats m) () defs₀ 𝒱₀ L lv) :=
  [ .region (reg0 m), .host (hseg m), .region (reg1 m) ]

theorem main_run (c : Dev nD) : main (F := F) c = Pipeline.Seg.run (segsH m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    the final memory holds every unscoped buffer at W3. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) Gen.adm (pdats m) () cellOf_inj embL defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c))
    (Tₙ := fun c => iprop(StableHlo.held (c : Thread nD τ) (Pipeline.ucRefs τ sig) (W3 m c) ∗ ∃ r, prngReg c r))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide))⟩) (run_all m ρ)

/-- The run with the result array named: it ends at what region 1's write-backs leave. -/
theorem run_result : θ_run defs (onTc (τ := τ) (main (F := F))) ⟨m, fun _ => 0, ρ⟩ (fun r => ∀ c : Dev nD,
      r.2.mem ((c.tc : Thread nD τ).loc main_v3) = X3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v3 (by decide))).trans (W3_same m c),
     (h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide))⟩) (run_all m ρ)

end Cert.Kernel.Hand

end
-- ==== Proof.R0Ideal.lean ====
/- REGION 0 of @main, the first pallas_call (the row-sum kernel), at any float instance.

   The grid has 128 points. Point t reads the 128×16384 block of the adjacency at rows 128·t … 128·t+127
   (window 0) and writes the 128×1 block of the degree vector at the same rows (window 1). The body loads the
   whole input block, computes one number per row — rsqrt (1 + the sum of the row) — and stores the 128×1
   result over the whole output block.

   This file states what each staging buffer holds after the body at every point (the proof data), proves the
   body's triple by running its memory operations, and discharges the pipeline's body obligation. What the numbers
   ARE is the business of the value file; here the payload stays a name. -/
import proofs.«150998_j28157805593140_2_alg».proof.Proof.Gen.KernelIdeal.Launch
import proofs.«150998_j28157805593140_2_alg».proof.Proof.Gen.KernelIdeal.Skeleton
import proofs.«150998_j28157805593140_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffers' contents when the region is entered
variable (V : (c : Dev nD) → (b : Ref sig .tc) → Buf (Elt F) ((c : Thread nD τ).loc b))

/-! ## The blocks the windows name -/

/-- The block of window w at grid point t, read from the window's array as it stands when the region starts. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds the point's block of the adjacency, whether or not the point
    fetched it — for any proof data over the entry contents whose body leaves the input buffer alone. The input
    window is not an output, is never idle and its blocks are not cut at the array's edge. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches -/

/-- The whole 128×16384 input block: the rectangle of the body's one load that matters. -/
abbrev rIn0 : Rect S128x16384 := Rect.unit (s := S128x16384) ![0, 0] S128x16384.size inb_S128x16384_S128x16384_0_0
/-- The whole 128×1 output block: the rectangle of the body's one store. -/
abbrev r0_0 : Rect S128x1 := Rect.unit (s := S128x1) ![0, 0] S128x1.size inb_S128x1_S128x1_0_0

/-! ## What the body leaves in the output buffer -/

/-- The output staging buffer after the body, as a function of the input block: the body's single store,
    whose payload is the kernel's pure computation over the loaded block. -/
def out0_1 (x0 : Vec F S128x16384 .f32) : Vec F S128x1 .f32 :=
  View.canon [⟨r0_0, k0_pay1 (View.ld x0 rIn0)⟩]

/-- The one store's rectangle is the whole 128×1 block, so every index of the buffer is written. -/
theorem cover0_1 (p0 : Vec F S128x1 .f32) (y : S128x1.Idx) :
    ∃ pc ∈ ([⟨r0_0, p0⟩] : List (View.Piece (Elt F) S128x1 .f32)), y ∈ pc.1.set :=
  View.cover_of_tiled [⟨r0_0, p0⟩] S128x1.size (by rfl) y

/-! ## The body's triple -/

set_option maxHeartbeats 1000000 in
/-- The body on whole staging memrefs — the input's at contents x0, the output's at anything — ends with the
    input's unchanged and the output's at out0_1 x0. The body is its skeleton of memory operations: a load of the
    input block, a load of the output block whose value is never used, and the store. -/
theorem sound_kernel0 (c : Dev nD) (E : Set ℕ) (i : grid0.Coords) (arg1 : Memref sig .tc .vmem S128x16384 .f32) (harg1 : arg1.IsWhole) (arg2 : Memref sig .tc .vmem S128x1 .f32) (harg2 : arg2.IsWhole)
    (x0 : Vec F S128x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__rowsum_kernel i arg1 harg1 arg2 harg2) K := by
  simp only [cc0__rowsum_kernel_eq_skeleton]; unfold cc0__rowsum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- The proof data of the pipeline on core c: the arrays as the region finds them; after the body at point t the
    input buffer still holds its block and the output buffer holds out0_1 of it; the invariant is the class's
    (the scoped rest and the generator register, untouched); full shares; nothing owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves in each window's buffer, the match on the window reduced. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point t: the invariant, the core's debts, and each window's current staging
    buffer at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it hands back: the same invariant and debts, and each buffer at the proof data's "after". -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input buffer holds the point's block, so the kernel's triple applies; the
    invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Runs.lean ====
/-
  The second region (the aggregation kernel): what its proof is stated over.

  The grid has 16 × 8 points, point t = 8 i + k with k innermost. The body zeroes the accumulator at k = 0, adds
  the product of the adjacency tile and the column-scaled feature tile at every k, and at k = 7 writes the
  finished output tile. Hence three control cases: the first step of a row block, a middle step, the last step.
-/
import proofs.«150998_j28157805593140_2_alg».proof.Proof.Gen.KernelIdeal.Launch
import proofs.«150998_j28157805593140_2_alg».proof.Proof.Gen.KernelIdeal.Skeleton
import proofs.«150998_j28157805593140_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the buffers' contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the point fetched it or
    the block index stood still since the last fetch. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, in closed form over the grid -/

/-- "This is the first contraction step of the row block": k = 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last contraction step of the row block": k = 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

/-- Before the last step the body stores nothing into the output tile, and the tile is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last step it is live (and written back). -/
theorem liveAt1_6 : ∀ t : Fin cfg1.N, cond1_1 (grid1.coords t) → cfg1.idle 6 (grid1.coords t) = false := by decide +kernel

/-! ## The staging memrefs and the accumulator -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
/-- The accumulator: a whole scoped buffer of the kernel's own, carried from point to point. -/
abbrev scM1 : Memref sig .tc .vmem S1024x128 .f32 := Memref.whole cc1_scratch0
/-- Views through which the output tile's and the accumulator's contents are stated. -/
abbrev VO1 : View sig .tc .vmem S1024x128 .f32 := (Memref.whole cc1_stg6_0 : Memref sig .tc .vmem S1024x128 .f32).view
abbrev VS1 : View sig .tc .vmem S1024x128 .f32 := scM1.view

/-- The region's invariant before its first point, conjunct by conjunct: the first kernel's staging buffers (not this
    kernel's business) and the accumulator at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1 fullShare d)) ∗ (∃ r, prngReg c r)) := by
  unfold Pipeline.ΦA; rw [scopedRest1_eq]; simp only [scM1, owns_whole]; try rfl

end Cert.KernelIdeal.Hand

end
-- ==== Proof.R1RunA.lean ====
/-
  The aggregation kernel's body at the FIRST contraction step of a row block (k = 0): the accumulator is zeroed, then
  the first product is added into it. The output tile is not touched.
-/
import proofs.«150998_j28157805593140_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- What the body's stores leave in the accumulator, as pieces (last first), with the proof that on whole staging
    memrefs — the adjacency tile, the feature tile and the column scale at their contents, the accumulator at
    anything — the body runs to the continuation holding the inputs as they were and the accumulator with those pieces
    written. -/
noncomputable def kernelRun1_A (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x2048 .f32) (x1 : Vec F S2048x128 .f32) (x3 : Vec F S2048x1 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg5 fullShare x3 ∗ (∃ d, owns (c : Thread nD τ) arg9 fullShare d)
            ∗ (iprop(owns (c : Thread nD τ) arg2 fullShare x0 ∗ owns (c : Thread nD τ) arg3 fullShare x1 ∗ owns (c : Thread nD τ) arg5 fullShare x3 ∗ (∃ f, arg9.view.loc (c : Thread nD τ) ↦[arg9.view.set]{fullShare} arg9.view.writes (Elt F) f LS)) -∗ K ⟨⟩))
          ⊢ wp frame (wpE (defs₀ (F := F)) Variants.none c none) E (cc1__adjmatmul_kernel i arg2 harg2 arg3 harg3 arg4 harg4 arg5 harg5 arg6 harg6 arg7 harg7 arg8 harg8 arg9 harg9) K } := by
  refine ⟨?_, fun E K => ?run⟩
  case run =>
    simp only [cc1__adjmatmul_kernel_eq_skeleton]; unfold cc1__adjmatmul_kernel_skel
    unfold owns
    iintro ⟨⟨%f0, %hf0, H0⟩, ⟨%f1, %hf1, H1⟩, ⟨%f3, %hf3, H3⟩, ⟨%ds, %fs, -, HS⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    iexists _; iexact HS

end Cert.KernelIdeal.Hand

end
-- ==== Proof.R1RunB.lean ====
/-
  The aggregation kernel's body at a MIDDLE contraction step (0 < k < 7): one more product is added into the
  accumulator, which holds what the step before left. The output tile is not touched.
-/
import proofs.«150998_j28157805593140_2_alg».proof.Proof.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The accumulator's pieces after a middle step, with the body's triple: the accumulator goes in at the contents `xs`
    the step before left. -/
noncomputable def kernelRun1_B (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x2048 .f32) (x1 : Vec F S2048x128 .f32) (x3 : Vec F S2048x1 .f32) (xs : Vec F S1024x128 .f32) :
    { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg9 fullShare xs
            ∗ (iprop(owns (c : Thread nD τ) arg2 fullShare x0 ∗ owns (c : Thread nD τ) arg3 fullShare x1 ∗ owns (c : Thread nD τ) arg5 fullShare x3 ∗ (∃ f, arg9.view.loc (c : Thread nD τ) ↦[arg9.view.set]{fullShare} arg9.view.writes (Elt F) f LS)) -∗ K ⟨⟩))
          ⊢ wp frame (wpE (defs₀ (F := F)) Variants.none c none) E (cc1__adjmatmul_kernel i arg2 harg2 arg3 harg3 arg4 harg4 arg5 harg5 arg6 harg6 arg7 harg7 arg8 harg8 arg9 harg9) K } := by
  refine ⟨?_, fun E K => ?run⟩
  case run =>
    simp only [cc1__adjmatmul_kernel_eq_skeleton]; unfold cc1__adjmatmul_kernel_skel
    unfold owns
    iintro ⟨⟨%f0, %hf0, H0⟩, ⟨%f1, %hf1, H1⟩, ⟨%f3, %hf3, H3⟩, ⟨%fs, %hfs, HS⟩, Hk⟩
    obtain rfl := harg2.eq_unread hf0; obtain rfl := harg3.eq_unread hf1; obtain rfl := harg5.eq_unread hf3; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    iexists _; iexact HS

end Cert.KernelIdeal.Hand

end
-- ==== Proof.R1RunC.lean ====
/-
  The aggregation kernel's body at the LAST contraction step of a row block (k = 7): the last product is added into the
  accumulator, then the self-loop term, the row scaling, the bias and the clamp at zero are applied and the finished tile is
  stored into the output window.
-/
import proofs.«150998_j28157805593140_2_alg».proof.Proof.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The output tile's and the accumulator's pieces after the last step, with the body's triple. -/
noncomputable def kernelRun1_C (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S2048x1 .f32) (harg5 : arg5.IsWhole) (arg6 : Memref sig .tc .vmem S1024x1 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .f32) (x1 : Vec F S2048x128 .f32) (x2 : Vec F S1024x128 .f32) (x3 : Vec F S2048x1 .f32) (x4 : Vec F S1024x1 .f32) (x5 : Vec F S1x128 .f32) (xs : Vec F S1024x128 .f32) :
    Σ' (L6 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS)) -∗ K ⟨⟩))
          ⊢ wp frame (wpE (defs₀ (F := F)) Variants.none c none) E (cc1__adjmatmul_kernel i arg2 harg2 arg3 harg3 arg4 harg4 arg5 harg5 arg6 harg6 arg7 harg7 arg8 harg8 arg9 harg9) K } := by
  refine ⟨?_, ?_, fun E K => ?run⟩
  case run =>
    simp only [cc1__adjmatmul_kernel_eq_skeleton]; unfold cc1__adjmatmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.KernelIdeal.Hand

end
-- ==== Proof.R1Frame.lean ====
/-
  The second region's proof data and body obligation.

  Point t = 8 i + k. After point t the accumulator holds the partial neighbour sum over the contraction blocks 0 … k of
  row block i; at k = 7 the output window's buffer holds the finished tile of row block i, which the pipeline writes
  back. `outsAt1` follows both through the grid by recursion on the point.
-/
import proofs.«150998_j28157805593140_2_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves -/

/-- The output window's buffer where no case stores into it (before the last step of a row block): a value nothing
    reads — at those points the window is neither written back nor read at the next point. -/
def unwritten : Vec F S1024x128 .f32 := VO1.read (Elt F) VO1.junk

/-- The accumulator after the first step of a row block: the run's pieces read back. -/
def soutA (c : Dev nD) (t : Fin cfg1.N) (hc0 : cond1_0 (grid1.coords t)) (hc1 : ¬cond1_1 (grid1.coords t)) : Vec F S1024x128 .f32 :=
  VS1.read (Elt F) (VS1.writes (Elt F) VS1.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 3 t)).1)
theorem scoverA (c : Dev nD) (t : Fin cfg1.N) (hc0 : cond1_0 (grid1.coords t)) (hc1 : ¬cond1_1 (grid1.coords t)) (y : S1024x128.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 3 t)).1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 3 t)).1 S1024x128.size (by sl_kernel_rfl) y

/-- The accumulator after a middle step, from what the step before left (`xs`). -/
def soutB (c : Dev nD) (t : Fin cfg1.N) (hc0 : ¬cond1_0 (grid1.coords t)) (hc1 : ¬cond1_1 (grid1.coords t)) (xs : Vec F S1024x128 .f32) : Vec F S1024x128 .f32 :=
  VS1.read (Elt F) (VS1.writes (Elt F) VS1.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 3 t) xs).1)
theorem scoverB (c : Dev nD) (t : Fin cfg1.N) (hc0 : ¬cond1_0 (grid1.coords t)) (hc1 : ¬cond1_1 (grid1.coords t)) (xs : Vec F S1024x128 .f32) (y : S1024x128.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 3 t) xs).1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 3 t) xs).1 S1024x128.size (by sl_kernel_rfl) y

/-- The output tile and the accumulator after the last step. -/
def outC (c : Dev nD) (t : Fin cfg1.N) (hc0 : ¬cond1_0 (grid1.coords t)) (hc1 : cond1_1 (grid1.coords t)) (xs : Vec F S1024x128 .f32) : Vec F S1024x128 .f32 :=
  VO1.read (Elt F) (VO1.writes (Elt F) VO1.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) (iblk1 V c 5 t) xs).1)
theorem coverC (c : Dev nD) (t : Fin cfg1.N) (hc0 : ¬cond1_0 (grid1.coords t)) (hc1 : cond1_1 (grid1.coords t)) (xs : Vec F S1024x128 .f32) (y : S1024x128.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) (iblk1 V c 5 t) xs).1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) (iblk1 V c 5 t) xs).1 S1024x128.size (by sl_kernel_rfl) y
def soutC (c : Dev nD) (t : Fin cfg1.N) (hc0 : ¬cond1_0 (grid1.coords t)) (hc1 : cond1_1 (grid1.coords t)) (xs : Vec F S1024x128 .f32) : Vec F S1024x128 .f32 :=
  VS1.read (Elt F) (VS1.writes (Elt F) VS1.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) (iblk1 V c 5 t) xs).2.1)
theorem scoverC (c : Dev nD) (t : Fin cfg1.N) (hc0 : ¬cond1_0 (grid1.coords t)) (hc1 : cond1_1 (grid1.coords t)) (xs : Vec F S1024x128 .f32) (y : S1024x128.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) (iblk1 V c 5 t) xs).2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hc0 hc1 (iblk1 V c 0 t) (iblk1 V c 1 t) (iblk1 V c 2 t) (iblk1 V c 3 t) (iblk1 V c 4 t) (iblk1 V c 5 t) xs).2.1 S1024x128.size (by sl_kernel_rfl) y

/-! ## The accumulation through the grid -/

/-- What the output window's buffer and the accumulator hold after the body at position n (a pair): the case the closed
    forms select, run at the point's blocks, the accumulator taken from position n - 1 unless the case resets it. -/
def outsAt1 (c : Dev nD) : (n : ℕ) → n < cfg1.N → Vec F S1024x128 .f32 × Vec F S1024x128 .f32
  | 0, hn => (unwritten, soutA V c ⟨0, hn⟩ ((hcond1_0 ⟨0, hn⟩).mpr (Nat.zero_mod _)) (fun h => (fun h => by (try dsimp only at h); omega) ((hcond1_1 ⟨0, hn⟩).mp h)))
  | n + 1, hn =>
    if h0 : (n + 1) % 8 = 0 then
      (unwritten, soutA V c ⟨n + 1, hn⟩ ((hcond1_0 ⟨n + 1, hn⟩).mpr h0) (fun h => (fun h => by (try dsimp only at h); omega) ((hcond1_1 ⟨n + 1, hn⟩).mp h)))
    else
      if h1 : (n + 1) % 8 = 7 then
        (outC V c ⟨n + 1, hn⟩ (fun h => h0 ((hcond1_0 ⟨n + 1, hn⟩).mp h)) ((hcond1_1 ⟨n + 1, hn⟩).mpr h1) (outsAt1 c n (Nat.lt_of_succ_lt hn)).2,
         soutC V c ⟨n + 1, hn⟩ (fun h => h0 ((hcond1_0 ⟨n + 1, hn⟩).mp h)) ((hcond1_1 ⟨n + 1, hn⟩).mpr h1) (outsAt1 c n (Nat.lt_of_succ_lt hn)).2)
      else
        (unwritten, soutB V c ⟨n + 1, hn⟩ (fun h => h0 ((hcond1_0 ⟨n + 1, hn⟩).mp h)) (fun h => h1 ((hcond1_1 ⟨n + 1, hn⟩).mp h)) (outsAt1 c n (Nat.lt_of_succ_lt hn)).2)

theorem outsAt1_A (c : Dev nD) (t : Fin cfg1.N) (h0 : t.val % 8 = 0) :
    outsAt1 V c t.val t.isLt = (unwritten, soutA V c t ((hcond1_0 t).mpr h0) (fun h => (fun h => by omega) ((hcond1_1 t).mp h))) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = (unwritten, soutB V c t (fun h => h0 ((hcond1_0 t).mp h)) (fun h => h1 ((hcond1_1 t).mp h))
      (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (outC V c t (fun h => h0 ((hcond1_0 t).mp h)) ((hcond1_1 t).mpr h1) (outsAt1 V c (t.val - 1) (Nat.lt_of_le_of_lt (Nat.sub_le _ _) t.isLt)).2,
      soutC V c t (fun h => h0 ((hcond1_0 t).mp h)) ((hcond1_1 t).mpr h1) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The region's invariant with the accumulator described by `S`: the first kernel's staging buffers at anything,
    the accumulator as `S` says, the generator register at some state. -/
def PhiWith (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ S) ∗ (∃ r, prngReg c r))

theorem PhiA1_with (c : Dev nD) : (Pipeline.ΦA spec1 c : sProp 𝕄) = PhiWith c iprop(∃ d, owns (c : Thread nD τ) scM1 fullShare d) := by
  rw [PhiA1_eq]; rfl

/-- Before position 0 the accumulator holds anything; before position n + 1 what position n left in it. -/
def PhiS1 (c : Dev nD) : (n : ℕ) → n ≤ cfg1.N → sProp 𝕄
  | 0, _ => Pipeline.ΦA spec1 c
  | n + 1, hn => PhiWith c (owns (c : Thread nD τ) scM1 fullShare ((outsAt1 V c n hn).2))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = PhiWith c (owns (c : Thread nD τ) scM1 fullShare ((outsAt1 V c n hn).2)) := rfl
theorem PhiS1_pos (c : Dev nD) (n : ℕ) (h : n ≤ cfg1.N) (hz : n ≠ 0) :
    PhiS1 V c n h = PhiWith c (owns (c : Thread nD τ) scM1 fullShare ((outsAt1 V c (n - 1) (by omega)).2)) := by
  cases n with
  | zero => exact absurd rfl hz
  | succ n => rfl

/-! ## The proof data -/

/-- The second region's proof data on core c: the arrays as the region finds them; after the body each input's buffer
    at its block and the output's at `outsAt1`; the invariant above; nothing owed. The feature matrix and the degree
    scale are each read through two windows, which hold one half of the array each. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q w := match w with
    | ⟨0, _⟩ => fullShare
    | ⟨1, _⟩ => PosShare.left fullShare
    | ⟨2, _⟩ => PosShare.right fullShare
    | ⟨3, _⟩ => PosShare.left fullShare
    | ⟨4, _⟩ => PosShare.right fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point t: the invariant, the core owing nothing, every window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem leaves1_0 (c : Dev nD) (t : Fin cfg1.N) : (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from rfl, after1_0]
theorem leaves1_1 (c : Dev nD) (t : Fin cfg1.N) : (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from rfl, after1_1]
theorem leaves1_2 (c : Dev nD) (t : Fin cfg1.N) : (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from rfl, after1_2]
theorem leaves1_3 (c : Dev nD) (t : Fin cfg1.N) : (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from rfl, after1_3]
theorem leaves1_4 (c : Dev nD) (t : Fin cfg1.N) : (dat1 V c).leavesExact 4 t = owns (c : Thread nD τ) (ms1_4 t) fullShare (iblk1 V c 4 t) := by
  rw [show (dat1 V c).leavesExact 4 t = owns (c : Thread nD τ) (ms1_4 t) fullShare ((dat1 V c).after 4 t) from rfl, after1_4]
theorem leaves1_5 (c : Dev nD) (t : Fin cfg1.N) : (dat1 V c).leavesExact 5 t = owns (c : Thread nD τ) (ms1_5 t) fullShare (iblk1 V c 5 t) := by
  rw [show (dat1 V c).leavesExact 5 t = owns (c : Thread nD τ) (ms1_5 t) fullShare ((dat1 V c).after 5 t) from rfl, after1_5]

set_option maxHeartbeats 8000000 in
/-- The body at any point: the closed forms say which case the point is in; the inputs' buffers hold their blocks; the
    invariant hands the body the accumulator at what the point before left (at anything before the first point) and takes
    it back at this point's contents; a case that does not store into the output tile hands its buffer back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, leaves1_0, leaves1_1, leaves1_2, leaves1_3, leaves1_4, leaves1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6 t hc1) (noFlush1_6 t hc1)]
    rw [outsAt1_A V c t h0]
    unfold soutA; (try dsimp only)
    by_cases hz : t.val = 0
    · rw [PhiS1_castSucc V c t, PhiS1_zero V c _ _ hz, PhiA1_with]; unfold PhiWith
      iintro ⟨⟨⟨HR0, HR1, HR2, HR3, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ hc0 hc1 (iblk1 V c 0 t) (iblk1 V c 1 t) (iblk1 V c 3 t)).2 Set.univ _)
      isplitl [H0]; · iexact H0
      isplitl [H1]; · iexact H1
      isplitl [H3]; · iexact H3
      isplitl [HS]; · iexact HS
      iintro ⟨H0, H1, H3, ⟨%es, HS⟩⟩
      isplitl [HR0 HR1 HR2 HR3 HS Hg]
      · isplitl [HR0 HR1 HR2 HR3 HS]
        · isplitl [HR0]; · iexact HR0
          isplitl [HR1]; · iexact HR1
          isplitl [HR2]; · iexact HR2
          isplitl [HR3]; · iexact HR3
          unfold owns; iexists _; isplitr
          swap; · iexact HS
          ipureintro; exact View.read_writes_of_cover _ _ _ _ _ (scoverA V c t hc0 hc1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]; unfold PhiWith
      iintro ⟨⟨⟨HR0, HR1, HR2, HR3, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ hc0 hc1 (iblk1 V c 0 t) (iblk1 V c 1 t) (iblk1 V c 3 t)).2 Set.univ _)
      isplitl [H0]; · iexact H0
      isplitl [H1]; · iexact H1
      isplitl [H3]; · iexact H3
      isplitl [HS]; · iexists _; iexact HS
      iintro ⟨H0, H1, H3, ⟨%es, HS⟩⟩
      isplitl [HR0 HR1 HR2 HR3 HS Hg]
      · isplitl [HR0 HR1 HR2 HR3 HS]
        · isplitl [HR0]; · iexact HR0
          isplitl [HR1]; · iexact HR1
          isplitl [HR2]; · iexact HR2
          isplitl [HR3]; · iexact HR3
          unfold owns; iexists _; isplitr
          swap; · iexact HS
          ipureintro; exact View.read_writes_of_cover _ _ _ _ _ (scoverA V c t hc0 hc1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · by_cases h1 : t.val % 8 = 7
    · have hc0 : ¬cond1_0 (grid1.coords t) := fun h => h0 ((hcond1_0 t).mp h)
      have hc1 : cond1_1 (grid1.coords t) := (hcond1_1 t).mpr h1
      rw [show (dat1 V c).leavesExact 6 t = owns (c : Thread nD τ) (ms1_6 t) fullShare ((dat1 V c).after 6 t) from by
        unfold Dat.leavesExact; rw [liveAt1_6 t hc1], after1_6]
      rw [outsAt1_C V c t h0 h1]
      unfold outC soutC; (try dsimp only)
      have hz : t.val ≠ 0 := by omega
      rw [PhiS1_castSucc V c t, PhiS1_pos V c _ _ hz]; unfold PhiWith
      iintro ⟨⟨⟨HR0, HR1, HR2, HR3, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ hc0 hc1 (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HR0 HR1 HR2 HR3 HS Hg]
      · isplitl [HR0 HR1 HR2 HR3 HS]
        · isplitl [HR0]; · iexact HR0
          isplitl [HR1]; · iexact HR1
          isplitl [HR2]; · iexact HR2
          isplitl [HR3]; · iexact HR3
          unfold owns; iexists _; isplitr
          swap; · iexact HS
          ipureintro; exact View.read_writes_of_cover _ _ _ _ _ (scoverC V c t hc0 hc1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverC V c t hc0 hc1 _)
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 6 t (idleAt1_6 t hc1) (noFlush1_6 t hc1)]
      rw [outsAt1_B V c t h0 h1]
      unfold soutB; (try dsimp only)
      have hz : t.val ≠ 0 := by omega
      rw [PhiS1_castSucc V c t, PhiS1_pos V c _ _ hz]; unfold PhiWith
      iintro ⟨⟨⟨HR0, HR1, HR2, HR3, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ hc0 hc1 (iblk1 V c 0 t) (iblk1 V c 1 t) (iblk1 V c 3 t) _).2 Set.univ _)
      isplitl [H0]; · iexact H0
      isplitl [H1]; · iexact H1
      isplitl [H3]; · iexact H3
      isplitl [HS]; · iexact HS
      iintro ⟨H0, H1, H3, ⟨%es, HS⟩⟩
      isplitl [HR0 HR1 HR2 HR3 HS Hg]
      · isplitl [HR0 HR1 HR2 HR3 HS]
        · isplitl [HR0]; · iexact HR0
          isplitl [HR1]; · iexact HR1
          isplitl [HR2]; · iexact HR2
          isplitl [HR3]; · iexact HR3
          unfold owns; iexists _; isplitr
          swap; · iexact HS
          ipureintro; exact View.read_writes_of_cover _ _ _ _ _ (scoverB V c t hc0 hc1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back, the accumulator's contents forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ hne, PhiA1_with]
  unfold PhiWith
  iintro ⟨⟨HR0, HR1, HR2, HR3, HS⟩, Hg⟩
  isplitl [HR0 HR1 HR2 HR3 HS]
  · isplitl [HR0]; · iexact HR0
    isplitl [HR1]; · iexact HR1
    isplitl [HR2]; · iexact HR2
    isplitl [HR3]; · iexact HR3
    iexists _; iexact HS
  iexact Hg

end Cert.KernelIdeal.Hand

end
-- ==== Proof.RunAll.lean ====
/-
  The kernel program's run: region 0 (degree scale), the host stretch (X · W and the bias as a row), region 1
  (aggregation), composed. Between two items every unscoped buffer is held whole at a named valuation:
  W0 the launch contents, W1 after region 0 (the degree-scale array at what its write-backs leave), W2 after the host
  stretch, W3 after region 1 (the result array at what its write-backs leave). The run ends with every unscoped buffer
  at W3; the frame (arguments unchanged) and the result's value are read off it.
-/
import proofs.«150998_j28157805593140_2_alg».proof.Proof.R0Ideal
import proofs.«150998_j28157805593140_2_alg».proof.Proof.R1Frame
import proofs.«150998_j28157805593140_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at the segment boundaries -/

/-- At launch (region 0's entry), read at the TensorCore's references. -/
abbrev VA : (c : Dev nD) → (b : Ref sig .tc) → Buf (Elt F) ((c : Thread nD τ).loc b) := fun c b => Gen.V0 m c b
/-- What region 0's write-backs leave in the degree-scale array. -/
def X0 (c : Dev nD) : Buf (Elt F) ((c : Thread nD τ).loc main_v0) := (dat0 (VA m) c).arrAt 1 cfg0.N
/-- After region 0. -/
def W1 (c : Dev nD) : Valuation τ sig (Elt F) := Function.update (Gen.V0 m c) main_v0 (X0 m c)
/-- After the host stretch (region 1's entry). -/
def W2 (c : Dev nD) : Valuation τ sig (Elt F) := StableHlo.after hostOps1 (W1 m c)
abbrev VB : (c : Dev nD) → (b : Ref sig .tc) → Buf (Elt F) ((c : Thread nD τ).loc b) := fun c b => W2 m c b
/-- What region 1's write-backs leave in the result array. -/
def X3 (c : Dev nD) : Buf (Elt F) ((c : Thread nD τ).loc main_v3) := (dat1 (VB m) c).arrAt 6 cfg1.N
/-- After region 1. -/
def W3 (c : Dev nD) : Valuation τ sig (Elt F) := Function.update (W2 m c) main_v3 (X3 m c)

theorem W1_same (c : Dev nD) : W1 m c main_v0 = X0 m c := by unfold W1; exact Function.update_self _ _ _
theorem W1_of (c : Dev nD) (r : Ref sig .tc) (h : r ≠ main_v0) : W1 m c r = Gen.V0 m c r := by
  unfold W1; exact Function.update_of_ne (StableHlo.devRef_ne_of_ne h) _ _
theorem W2_of (c : Dev nD) (r : Ref sig .tc) (h : r ∉ Gen.hostOps1_W) : W2 m c r = W1 m c r :=
  StableHlo.after_of_writes_sub hostOps1 _ Gen.hostOps1_writes h
theorem W3_same (c : Dev nD) : W3 m c main_v3 = X3 m c := by unfold W3; exact Function.update_self _ _ _
theorem W3_of (c : Dev nD) (r : Ref sig .tc) (h : r ≠ main_v3) : W3 m c r = W2 m c r := by
  unfold W3; exact Function.update_of_ne (StableHlo.devRef_ne_of_ne h) _ _

/-- No item writes an argument. -/
theorem W3_arg (c : Dev nD) (r : Ref sig .tc) (h3 : r ≠ main_v3) (h2 : r ∉ Gen.hostOps1_W) (h0 : r ≠ main_v0) :
    W3 m c r = m ((c : Thread nD τ).loc r) :=
  (W3_of m c r h3).trans ((W2_of m c r h2).trans ((W1_of m c r h0).trans rfl))

/-! ## The proof data family and what rides beside the buffers -/

def pdats : (p : Fin 2) → (c : Dev nD) → Dat τ (Elt F) Unit ℕ (Pipeline.UD sig nD τ) ℕ (cfgs p) c
  | ⟨0, _⟩ => fun c => dat0 (VA m) c
  | ⟨1, _⟩ => fun c => dat1 (VB m) c

abbrev 𝒱₀ : Variants := Variants.none
abbrev L : GSem nD τ sig → Finset Unit := fun _ => ∅
abbrev lv : GSem nD τ sig → Unit → ℕ := fun _ _ => 0
/-- The generator register at some state and the core owing nothing. -/
abbrev Rr (c : Dev nD) : sProp 𝕄 := iprop((∃ r, prngReg c r) ∗ ∃ W, owes (c : Thread nD τ) (0 : CellTallies nD τ sig Unit) W)

/-! ## Region 1's arrays, window by window

The feature matrix (main_v1) is read through windows 1 and 2 and the degree scale (main_v0) through windows 3 and 4:
each of the two windows holds one half of the array. -/

theorem arrays1_of (V : (c : Dev nD) → (b : Ref sig .tc) → Buf (Elt F) ((c : Thread nD τ).loc b)) (c : Dev nD)
    (G : (w : Fin cfg1.W) → Buf (Elt F) ((cfg1.win w).arr.view.loc (c : Thread nD τ)))
    (g0 : Buf (Elt F) ((c : Thread nD τ).loc main_arg1)) (g1 g2 : Buf (Elt F) ((c : Thread nD τ).loc main_v1)) (g3 g4 : Buf (Elt F) ((c : Thread nD τ).loc main_v0))
    (g5 : Buf (Elt F) ((c : Thread nD τ).loc main_v2)) (g6 : Buf (Elt F) ((c : Thread nD τ).loc main_v3))
    (h0 : G 0 = g0) (h1 : G 1 = g1) (h2 : G 2 = g2) (h3 : G 3 = g3) (h4 : G 4 = g4) (h5 : G 5 = g5) (h6 : G 6 = g6) :
    ((dat1 V c).arrays G : sProp 𝕄)
      = iprop((((c : Thread nD τ).loc main_arg1) ↦{fullShare} g0) ∗ (((c : Thread nD τ).loc main_v1) ↦{PosShare.left fullShare} g1) ∗ (((c : Thread nD τ).loc main_v1) ↦{PosShare.right fullShare} g2)
          ∗ (((c : Thread nD τ).loc main_v0) ↦{PosShare.left fullShare} g3) ∗ (((c : Thread nD τ).loc main_v0) ↦{PosShare.right fullShare} g4)
          ∗ (((c : Thread nD τ).loc main_v2) ↦{fullShare} g5) ∗ (((c : Thread nD τ).loc main_v3) ↦{fullShare} g6)) := by
  subst h0 h1 h2 h3 h4 h5 h6
  unfold Dat.arrays
  rw [show (bigSep Finset.univ fun w : Fin cfg1.W => ((cfg1.win w).arr.view.loc (c : Thread nD τ) ↦[(cfg1.win w).arr.view.set]{(dat1 V c).share w} G w : sProp 𝕄))
        = bigSep Finset.univ fun w : Fin cfg1.W => ((cfg1.win w).arr.view.loc (c : Thread nD τ) ↦{(dat1 V c).share w} G w : sProp 𝕄) from
        bigSep_congr fun w _ => by rw [(arr_whole1 w).set_eq_univ]]
  rw [bigSep_W1]; rfl

/-- The buffers behind region 1's arrays, one by one. -/
theorem arrBufs1_eq (c : Dev nD) (V : (b : Ref sig .tc) → Buf (Elt F) ((c : Thread nD τ).loc b)) :
    (Pipeline.arrBufs (Ix := Unit) (Name := ℕ) (U := Pipeline.UD sig nD τ) (Lvl := ℕ) spec1 c V : sProp 𝕄)
      = iprop((((c : Thread nD τ).loc main_arg1) ↦{fullShare} V main_arg1) ∗ (((c : Thread nD τ).loc main_v1) ↦{fullShare} V main_v1) ∗ (((c : Thread nD τ).loc main_v0) ↦{fullShare} V main_v0)
          ∗ (((c : Thread nD τ).loc main_v2) ↦{fullShare} V main_v2) ∗ (((c : Thread nD τ).loc main_v3) ↦{fullShare} V main_v3)) := by
  unfold Pipeline.arrBufs
  rw [BI.bigSep_eq_bigSepL_of_eq [main_arg1, main_v1, main_v0, main_v2, main_v3] (by decide) (by decide)]; rfl

/-- A core's unscoped buffers are the buffers behind region 1's arrays and the three it does not touch. -/
theorem held_split1 (c : Dev nD) (Wv : Valuation τ sig (Elt F)) :
    (StableHlo.held (c : Thread nD τ) (Pipeline.ucRefs τ sig) Wv : sProp 𝕄)
      = iprop(Pipeline.arrBufs spec1 c (fun b => Wv b) ∗ Pipeline.unscopedRest spec1 c (fun b => Wv b)) := by
  rw [← Pipeline.unscopedBufs_held]
  exact Pipeline.unscopedBufs_split₀ cfgs 1 winFacts₀1.arr_unscoped c (fun b => Wv b)

/-! ## The regions as segments -/

set_option backward.isDefEq.respectTransparency.types false in
/-- REGION 0: entered from every unscoped buffer at the launch contents, left at W1. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V0 m c) ∗ Rr c)
  post c := iprop(StableHlo.held (c : Thread nD τ) (Pipeline.ucRefs τ sig) (W1 m c) ∗ Rr c)
  X c := iprop(∃ r, prngReg c r)
  Y c := iprop(∃ r, prngReg c r)
  Z c := Pipeline.unscopedRest (Ix := Unit) (Name := ℕ) (U := Pipeline.UD sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (VA m c) (fun b => W1 m c b) ((pdats m 0 c).arrAt · cfg0.N)
      (fun w => by
        match w with
        | ⟨0, _⟩ => exact (((dat0 (VA m) c).arrAt_in 0 rfl _).trans (A_eq0 (VA m) c 0)).trans (W1_of m c main_arg1 (by decide)).symm
        | ⟨1, _⟩ => exact (W1_same m c).symm)
      (fun b hb => W1_of m c b fun e => hb (Finset.mem_image.mpr ⟨1, Finset.mem_univ _, e.symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1's entry: the arrays split out of the unscoped buffers, the two shared ones into halves. -/
theorem entry1 (c : Dev nD) :
    iprop(iprop(StableHlo.held (c : Thread nD τ) (Pipeline.ucRefs τ sig) (W2 m c) ∗ Rr c) ∗ Pipeline.ownSems0 (Ix := Unit) (Name := ℕ) (U := Pipeline.UD sig nD τ) (Lvl := ℕ) (Val := Elt F) (τ := τ) (fun k : PEmpty => k.elim) c ∗ levAts L lv)
      ⊢ |={Set.univ}=> (iprop((dat1 (VB m) c).arrays ((dat1 (VB m) c).arrAt · 0) ∗ Pipeline.prefHeld (pcfgs (F := F) 1).pre c (fun _ => fullShare) (Gen.adm (F := F) 1).1
          ∗ (dat1 (VB m) c).owesAt () 0 ∗ iprop(∃ r, prngReg c r) ∗ Pipeline.unscopedRest (Ix := Unit) (Name := ℕ) (U := Pipeline.UD sig nD τ) (Lvl := ℕ) spec1 c (VB m c)) : sProp 𝕄) := by
  rw [Pipeline.ownSems0_none, held_split1, arrBufs1_eq,
    arrays1_of (VB m) c ((dat1 (VB m) c).arrAt · 0) (VB m c main_arg1) (VB m c main_v1) (VB m c main_v1) (VB m c main_v0) (VB m c main_v0) (VB m c main_v2) (VB m c main_v3)
      (A_eq1 (VB m) c 0) (A_eq1 (VB m) c 1) (A_eq1 (VB m) c 2) (A_eq1 (VB m) c 3) (A_eq1 (VB m) c 4) (A_eq1 (VB m) c 5) (A_eq1 (VB m) c 6)]
  iintro ⟨⟨⟨⟨Ha1, Hv1, Hv0, Hv2, Hv3⟩, Hrest⟩, Hp, HO⟩, -, -⟩
  ihave Hv1' := (pointsTo_share (PosShare.mem_left_op_right fullShare)).1 $$ Hv1
  icases Hv1' with ⟨Hv1a, Hv1b⟩
  ihave Hv0' := (pointsTo_share (PosShare.mem_left_op_right fullShare)).1 $$ Hv0
  icases Hv0' with ⟨Hv0a, Hv0b⟩
  imodintro
  isplitl [Ha1 Hv1a Hv1b Hv0a Hv0b Hv2 Hv3]
  · isplitl [Ha1]; · iexact Ha1
    isplitl [Hv1a]; · iexact Hv1a
    isplitl [Hv1b]; · iexact Hv1b
    isplitl [Hv0a]; · iexact Hv0a
    isplitl [Hv0b]; · iexact Hv0b
    isplitl [Hv2]; · iexact Hv2
    iexact Hv3
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitl [Hp]; · iexact Hp
  iexact Hrest

theorem in1 (c : Dev nD) :
    iprop(iprop(∃ r, prngReg c r) ∗ Pipeline.prefHeld (pcfgs (F := F) 1).pre c (fun _ => fullShare) (Gen.adm (F := F) 1).1 ∗ Pipeline.scopedRest (Ix := Unit) (Name := ℕ) (U := Pipeline.UD sig nD τ) (Lvl := ℕ) (Val := Elt F) spec1 c)
      ⊢ ((dat1 (VB m) c).Φ 0 : sProp 𝕄) := by
  iintro ⟨Hp, -, Hr⟩
  iapply (hin1 (VB m) c)
  unfold Pipeline.ΦA
  isplitl [Hr]; · iexact Hr
  iexact Hp

theorem out1 (c : Dev nD) :
    ((dat1 (VB m) c).Φ (Fin.last cfg1.N) : sProp 𝕄)
      ⊢ iprop(iprop(∃ r, prngReg c r) ∗ Pipeline.ownSems0 (Ix := Unit) (Name := ℕ) (U := Pipeline.UD sig nD τ) (Lvl := ℕ) (Val := Elt F) (τ := τ) (fun k : PEmpty => k.elim) c ∗ Pipeline.scopedRest (Ix := Unit) (Name := ℕ) (U := Pipeline.UD sig nD τ) (Lvl := ℕ) (Val := Elt F) spec1 c) := by
  rw [Pipeline.ownSems0_none]
  iintro H
  ihave H' := (hout1 (VB m) c) $$ H
  unfold Pipeline.ΦA
  icases H' with ⟨Hr, Hp⟩
  isplitl [Hp]; · iexact Hp
  isplitr; · iempintro
  iexact Hr

set_option backward.isDefEq.respectTransparency.types false in
/-- Region 1's exit: the halves joined, every unscoped buffer at W3. -/
theorem exit1 (c : Dev nD) :
    iprop((dat1 (VB m) c).arrays ((dat1 (VB m) c).arrAt · cfg1.N) ∗ (dat1 (VB m) c).owesAt () (Fin.last cfg1.N) ∗ iprop(∃ r, prngReg c r) ∗ Pipeline.unscopedRest (Ix := Unit) (Name := ℕ) (U := Pipeline.UD sig nD τ) (Lvl := ℕ) spec1 c (VB m c))
      ⊢ |={Set.univ}=> (iprop(iprop(StableHlo.held (c : Thread nD τ) (Pipeline.ucRefs τ sig) (W3 m c) ∗ ∃ r, prngReg c r) ∗ ∃ W, owes (c : Thread nD τ) (0 : CellTallies nD τ sig Unit) W) : sProp 𝕄) := by
  rw [held_split1, arrBufs1_eq, Gen.unscopedRest1_eq c (fun b => W3 m c b), Gen.unscopedRest1_eq c (VB m c),
    arrays1_of (VB m) c ((dat1 (VB m) c).arrAt · cfg1.N) (VB m c main_arg1) (VB m c main_v1) (VB m c main_v1) (VB m c main_v0) (VB m c main_v0) (VB m c main_v2) (X3 m c)
      (((dat1 (VB m) c).arrAt_in 0 rfl _).trans (A_eq1 (VB m) c 0)) (((dat1 (VB m) c).arrAt_in 1 rfl _).trans (A_eq1 (VB m) c 1))
      (((dat1 (VB m) c).arrAt_in 2 rfl _).trans (A_eq1 (VB m) c 2)) (((dat1 (VB m) c).arrAt_in 3 rfl _).trans (A_eq1 (VB m) c 3))
      (((dat1 (VB m) c).arrAt_in 4 rfl _).trans (A_eq1 (VB m) c 4)) (((dat1 (VB m) c).arrAt_in 5 rfl _).trans (A_eq1 (VB m) c 5)) rfl,
    W3_of m c main_arg1 (by decide), W3_of m c main_v1 (by decide), W3_of m c main_v0 (by decide), W3_of m c main_v2 (by decide), W3_same m c,
    W3_of m c main_arg0 (by decide), W3_of m c main_arg2 (by decide), W3_of m c main_arg3 (by decide)]
  iintro ⟨⟨Ha1, Hv1a, Hv1b, Hv0a, Hv0b, Hv2, Hv3⟩, HO, HY, Hrest⟩
  ihave Hv1 := (pointsTo_share (PosShare.mem_left_op_right fullShare)).2 $$ [Hv1a Hv1b]
  · isplitl [Hv1a] <;> iassumption
  ihave Hv0 := (pointsTo_share (PosShare.mem_left_op_right fullShare)).2 $$ [Hv0a Hv0b]
  · isplitl [Hv0a] <;> iassumption
  imodintro
  isplitr [HO]
  · isplitr [HY]
    · isplitr [Hrest]
      · isplitl [Ha1]; · iexact Ha1
        isplitl [Hv1]; · iexact Hv1
        isplitl [Hv0]; · iexact Hv0
        isplitl [Hv2]; · iexact Hv2
        iexact Hv3
      · iexact Hrest
    · iexact HY
  · unfold Pipeline.Dat.owesAt Pipeline.owesWithin
    icases HO with ⟨%W, -, HO⟩; iexists W; iexact HO

set_option backward.isDefEq.respectTransparency.types false in
/-- REGION 1: entered from every unscoped buffer at W2, left at W3. The two arrays read through two windows each are
    split into halves at the entry and joined again at the exit. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(iprop(StableHlo.held (c : Thread nD τ) (Pipeline.ucRefs τ sig) (W3 m c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (VB m c)
  hentry c := entry1 m c
  hin c := in1 m c
  hout c := out1 m c
  hexit c := exit1 m c

/-! ## @main as segments, and the run -/

/-- The host stretch between the regions as a segment over the unscoped buffers from W1. -/
abbrev hseg : Pipeline.HostSeg (Name := ℕ) (U := Pipeline.UD sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp Gen.hostOps1_fresh) op h) (W1 m) Rr

abbrev segsH : List (Pipeline.Seg (pcfgs (F := F)) Gen.adm (pdats m) () defs₀ 𝒱₀ L lv) :=
  [ .region (reg0 m), .host (hseg m), .region (reg1 m) ]

theorem main_run (c : Dev nD) : main (F := F) c = Pipeline.Seg.run (segsH m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    the final memory holds every unscoped buffer at W3. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) Gen.adm (pdats m) () cellOf_inj embL defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c))
    (Tₙ := fun c => iprop(StableHlo.held (c : Thread nD τ) (Pipeline.ucRefs τ sig) (W3 m c) ∗ ∃ r, prngReg c r))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide))⟩) (run_all m ρ)

/-- The run with the result array named: it ends at what region 1's write-backs leave. -/
theorem run_result : θ_run defs (onTc (τ := τ) (main (F := F))) ⟨m, fun _ => 0, ρ⟩ (fun r => ∀ c : Dev nD,
      r.2.mem ((c.tc : Thread nD τ).loc main_v3) = X3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v3 (by decide))).trans (W3_same m c),
     (h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide))⟩) (run_all m ρ)

end Cert.KernelIdeal.Hand

end
-- ==== Proof.Spec.lean ====
/-
  The two programs as functions of the argument arrays, on the extended reals.

  A dense graph-convolution layer over N = 16384 nodes with C = F = 128 features:
  with a = adj, the degree of node r (self-loop included) is  deg r = (∑ j, a r j) + 1,
  XW = X · W, and the layer is  out r f = max (∑ j, Ânorm r j · XW j f + b f) 0  where
  Ânorm = D^{-1/2} (a + I) D^{-1/2}.

  * `kernelOut` is the layer as the kernel computes it: d r = rsqrt (deg r), the neighbour sum
    ∑ j, a r j · (d j · XW j f) with the column scaling folded into the right factor, the self-loop
    term d r · XW r f added afterwards, then the row scaling d r, the bias and the clamp at 0.
  * `refOut` is the layer as the reference computes it: the degree is the row sum of a + I,
    d r = 1 / sqrt (deg r), the matrix (a + I) r j · d r · d j is formed and multiplied with XW.

  The two agree when every entry is a real number and every degree is positive (Algebra.lean).
-/
import Idealize.ShloMosaic.PureOps.Ideal
import Idealize.ShloMosaic.Lib.ValueIdx

noncomputable section

open scoped BigOperators

namespace Cert.Gcn

open Idealize.ShloMosaic Idealize.ShloMosaic.ValueIdx

/-- The shapes of the arguments: node features, adjacency, weights, bias; and of the result. -/
abbrev SNC : Shape := ⟨2, ![16384, 128]⟩
abbrev SNN : Shape := ⟨2, ![16384, 16384]⟩
abbrev SCF : Shape := ⟨2, ![128, 128]⟩
abbrev SF : Shape := ⟨1, ![128]⟩

variable (X : SNC.Idx → EReal) (A : SNN.Idx → EReal) (W : SCF.Idx → EReal) (b : SF.Idx → EReal)

/-- The transformed features XW = X · W, entry (r, f). -/
def xw (r : Fin 16384) (f : Fin 128) : EReal := ∑ c : Fin 128, X (ix2 r c) * W (ix2 c f)

/-! ## The kernel's form -/

/-- The degree of node r as the kernel adds it up: the row sum, then the self-loop's 1. -/
def degK (r : Fin 16384) : EReal := (∑ j : Fin 16384, A (ix2 r j)) + 1

/-- D^{-1/2} by the reciprocal square root. -/
def dK (r : Fin 16384) : EReal := Ideal.rsqrt (degK A r)

/-- The neighbour sum with the column scaling folded into the right factor. -/
def nbrK (r : Fin 16384) (f : Fin 128) : EReal := ∑ j : Fin 16384, A (ix2 r j) * (dK A j * xw X W j f)

/-- The layer as the kernel computes it. -/
def kernelOut : SNC.Idx → EReal := fun i =>
  max (dK A (i 0) * (nbrK X A W (i 0) (i 1) + dK A (i 0) * xw X W (i 0) (i 1)) + b (ix1 (i 1))) 0

/-! ## The reference's form -/

/-- The identity matrix's entry. -/
def eye (r j : Fin 16384) : EReal := if r.val = j.val then 1 else 0

/-- The degree of node r as the reference adds it up: the row sum of a + I. -/
def degR (r : Fin 16384) : EReal := ∑ j : Fin 16384, (A (ix2 r j) + eye r j)

/-- D^{-1/2} by a square root and a quotient. -/
def dR (r : Fin 16384) : EReal := Ideal.div 1 (Ideal.sqrt (degR A r))

/-- The symmetrically normalised adjacency's entry. -/
def normR (r j : Fin 16384) : EReal := (A (ix2 r j) + eye r j) * dR A r * dR A j

/-- The layer as the reference computes it. -/
def refOut : SNC.Idx → EReal := fun i =>
  max ((∑ j : Fin 16384, normR A (i 0) j * xw X W j (i 1)) + b (ix1 (i 1))) 0

/-- What the precondition says of the arguments, decoded: every entry a real number, every degree positive. -/
structure Dom : Prop where
  finX : ∀ i, X i ≠ ⊤ ∧ X i ≠ ⊥
  finA : ∀ i, A i ≠ ⊤ ∧ A i ≠ ⊥
  finW : ∀ i, W i ≠ ⊤ ∧ W i ≠ ⊥
  finb : ∀ i, b i ≠ ⊤ ∧ b i ≠ ⊥
  degPos : ∀ r : Fin 16384, 0 < degR A r

end Cert.Gcn

end
-- ==== Proof.R0Value.lean ====
/- REGION 0 of @main, the row-sum kernel, on the extended reals: what its output array holds after the run.

   At point t the body stores, for each of the block's 128 rows, the reciprocal square root of one plus the sum
   of that row of the input block. The input block at point t is rows 128·t … 128·t+127 of the adjacency and the
   output block is the same rows of the degree vector, so point t writes back rows 128·t … 128·t+127 of the
   ONE function  r ↦ rsqrt (1 + ∑ j, a r j)  of the adjacency as the region finds it. Row r lies in the block of
   point r / 128, so the 128 blocks cover the array and it ends holding that function. The adjacency itself is an
   input and is never written. -/
import proofs.«150998_j28157805593140_2_alg».proof.Proof.R0Ideal
import proofs.«150998_j28157805593140_2_alg».proof.Proof.Spec
import Idealize.ShloMosaic.PureOps.Ideal.Laws
import Idealize.ShloMosaic.Lib.IdealHost
import Idealize.ShloMosaic.Lib.ValueIdx
import Idealize.ShloMosaic.Lib.Pipeline.Value
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The body's computation, row by row -/

/-- The kernel's payload at row r of a block: the reciprocal square root of one plus the row's sum. The lane
    reduction starts from the additive neutral, so it is the bare sum; the cast [128] → [128,1] keeps the row;
    the broadcast constant is the word of 1.0. -/
theorem pay_apply (x : Vec Ideal S128x16384 .f32) (r : Fin 128) (u : Fin 1) :
    k0_pay1 (F := Ideal) x (ix2 r u) = Ideal.rsqrt ((∑ j : Fin 16384, x (ix2 r j)) + 1) := by
  unfold k0_pay1
  have e1 : ∀ (v : FVec Ideal S128x1 .f32) (i : S128x1.Idx), rsqrt v i = Ideal.rsqrt (v i) := fun _ _ => rfl
  rw [e1, addf_apply, broadcast_apply, Ideal.ofBits_def, Ideal.ofBits_one_f32, shapeCast_apply _ _ (ix2 r u) (ix1 r) (by
    have hu : u.val = 0 := by omega
    rw [Shape.rowMajor_val_two, Shape.rowMajor_val_one]
    show r.val = r.val * 1 + u.val
    omega)]
  refine congrArg (fun z => Ideal.rsqrt (z + 1)) ?_
  refine (Ideal.multiReduction_add_single x _ _ _ _ (ix1 r)).trans ?_
  show ∑ k : Fin 16384, x (reduces_S128x16384_S128.lift (ix1 r) k) = _
  refine Finset.sum_congr rfl fun k _ => congrArg x ?_
  funext a; apply Fin.ext
  match a with
  | ⟨0, _⟩ => rfl
  | ⟨1, _⟩ => rfl

/-! ## The region's result as one function of the adjacency -/

-- the buffers' contents when the region is entered
variable (V : (c : Dev nD) → (b : Ref sig .tc) → Buf (Elt Ideal) ((c : Thread nD τ).loc b))

/-- The degree vector's normaliser, row by row, of the adjacency as the region finds it. -/
abbrev dvec0 (c : Dev nD) : S16384x1.Idx → EReal := fun i => Cert.Gcn.dK (V c main_arg1) (i 0)

theorem hz0 : (![0, 0] : Fin 2 → Nat) = fun _ => 0 := funext fun a => by fin_cases a <;> rfl

/-- The printed index maps over the grid: at point t both windows are at block row t, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point t, at row p and lane j, is the adjacency at row 128·t + p, column j. -/
theorem iblk0_apply (c : Dev nD) (t : Fin cfg0.N) (p : Fin 128) (j : Fin 16384) (q : Fin 16384)
    (hq : q.val = 128 * t.val + p.val) :
    (iblk0 V c 0 t : Vec Ideal S128x16384 .f32) (ix2 p j) = (V c main_arg1 : S16384x16384.Idx → EReal) (ix2 q j) := by
  obtain ⟨e0, e1, -, -⟩ := idx_facts0 t
  unfold iblk0
  rw [View.read_apply]
  show V c main_arg1 _ = V c main_arg1 _
  refine congrArg (V c main_arg1) (funext fun a => Fin.ext ?_)
  match a with
  | ⟨0, _⟩ => show win0_0.index t (0 : Fin 2) * 128 + 1 * p.val = q.val; rw [e0, hq]; omega
  | ⟨1, _⟩ => show win0_0.index t (1 : Fin 2) * 16384 + 1 * j.val = j.val; rw [e1]; omega

/-- WHAT POINT t WRITES BACK is block t of the normaliser vector — of any function G on the output's indices
    that is, row by row, the normaliser of the adjacency (G stays a variable so that reading a block of it is only
    the read's own unfolding). -/
theorem flushed0_1 (c : Dev nD) (t : Fin cfg0.N) (G : S16384x1.Idx → EReal)
    (hG : ∀ i : S16384x1.Idx, G i = Cert.Gcn.dK (V c main_arg1) (i 0)) :
    (dat0 (F := Ideal) V c).flushed 1 t = ((cfg0.win 1).blk t).view.read (Elt Ideal) G := by
  show (cfg0.win 1).cut (grid0.coords t) ((dat0 V c).after 1 t) = _
  rw [after0_1]
  unfold out0_1
  rw [View.canon_unit_zero hz0]
  simp only [View.ld_unit_zero (S := S128x16384) hz0]
  obtain ⟨-, -, e2, e3⟩ := idx_facts0 t
  funext y
  obtain ⟨p, u, rfl⟩ : ∃ (p : Fin 128) (u : Fin 1), y = ix2 p u := ⟨y 0, y 1, eq_ix2 y⟩
  have ht : t.val < 128 := lt_of_lt_of_eq t.isLt N_0
  have hrow : (((cfg0.win 1).blk t).view.emb (ix2 p u) (0 : Fin 2)).val = 128 * t.val + p.val := by
    show win0_1.index t (0 : Fin 2) * 128 + 1 * p.val = _; rw [e2]; omega
  show k0_pay1 (F := Ideal) (iblk0 V c 0 t) (ix2 p u) = G (((cfg0.win 1).blk t).view.emb (ix2 p u))
  rw [hG]
  refine (pay_apply _ p u).trans ?_
  unfold Cert.Gcn.dK Cert.Gcn.degK
  refine congrArg (fun z => Ideal.rsqrt (z + 1)) ?_
  exact Finset.sum_congr rfl fun j _ => iblk0_apply V c t p j _ hrow

/-- An index of the output array is in point t's block iff each coordinate is in the block's range. -/
theorem mem_blk0_1 (t : Fin cfg0.N) (i : S16384x1.Idx) :
    i ∈ ((cfg0.win 1).blk t).view.set ↔ ∀ a : Fin 2, win0_1.index t a * S128x1.size a ≤ (i a).val ∧ (i a).val < win0_1.index t a * S128x1.size a + S128x1.size a := by
  show i ∈ ((View.whole main_v0).slice (win0_1.rect t)).set ↔ _
  rw [View.set_slice_whole, Rect.mem_set_unit]
  exact Iff.rfl

/-- Row r of the output array lies in the block of point r / 128. -/
theorem cover0 (i : S16384x1.Idx) :
    ∃ t : Fin cfg0.N, (cfg0.win 1).flush t = true ∧ i ∈ ((cfg0.win 1).blk t).view.set := by
  have hi0 : (i 0).val < 16384 := (i 0).isLt
  have hi1 : (i 1).val < 1 := (i 1).isLt
  have hN : cfg0.N = 128 := N_0
  refine ⟨⟨(i 0).val / 128, by rw [hN]; omega⟩, flush0_1 _, ?_⟩
  rw [mem_blk0_1]
  obtain ⟨-, -, e2, e3⟩ := idx_facts0 ⟨(i 0).val / 128, by rw [hN]; omega⟩
  intro a
  match a with
  | ⟨0, _⟩ =>
    show win0_1.index _ (0 : Fin 2) * 128 ≤ (i 0).val ∧ (i 0).val < win0_1.index _ (0 : Fin 2) * 128 + 128
    rw [e2]; show (i 0).val / 128 * 128 ≤ (i 0).val ∧ (i 0).val < (i 0).val / 128 * 128 + 128; omega
  | ⟨1, _⟩ =>
    show win0_1.index _ (1 : Fin 2) * 1 ≤ (i 1).val ∧ (i 1).val < win0_1.index _ (1 : Fin 2) * 1 + 1
    rw [e3]; omega

/-- THE OUTPUT ARRAY after the region: the normaliser of every row of the adjacency as the region found it. -/
theorem final0 (c : Dev nD) : (dat0 (F := Ideal) V c).arrAt 1 cfg0.N = (fun i => Cert.Gcn.dK (V c main_arg1) (i 0)) :=
  (dat0 (F := Ideal) V c).arrAt_eq_of_cover 1 (dvec0 V c) (fun t _ => flushed0_1 V c t (dvec0 V c) (fun _ => rfl)) cover0

end Cert.KernelIdeal.Hand

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- THE INPUT ARRAY after the region is what it was: an input window's array is never written. -/
theorem kept0 (c : Dev nD) : (dat0 (F := F) V c).arrAt 0 cfg0.N = V c (Pipeline.arrRef spec0 0) :=
  ((dat0 (F := F) V c).arrAt_in 0 rfl cfg0.N).trans (A_eq0 V c 0)

end Cert.KernelIdeal.Hand

end
-- ==== Proof.HostVals.lean ====
/-
  The host operations between the two regions, read at an index on the extended reals.

  The stretch has two operations: the product of the node features with the weights, XW = X · W, written to the
  array the second region reads as its right factor, and the bias reshaped from [128] to the row [1,128]. For any
  contents of the buffers before the stretch: afterwards the product's array holds, at (r, f), the sum over the 128
  feature columns of X r c · W c f; the row holds the bias; and the adjacency and the normaliser vector, which
  the stretch does not write, hold what they held.
-/
import proofs.«150998_j28157805593140_2_alg».proof.Proof.Gen.KernelIdeal.Launch
import proofs.«150998_j28157805593140_2_alg».proof.Proof.Gen.KernelIdeal.Regions
import proofs.«150998_j28157805593140_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.StableHlo Idealize.SL.Sem

/-! ## The product at an index -/

/-- The left operand's index at output (r, f) and contraction coordinate: row r. -/
theorem xw_lhs_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
/-- … and the contraction coordinate as its column. -/
theorem xw_lhs_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q
/-- The right operand's index: the contraction coordinate as its row, -/
theorem xw_rhs_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q
/-- … and column f. -/
theorem xw_rhs_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl

/-- The host's product of a [16384,128] array with a [128,128] array, at (r, f): the sum over the 128 columns. -/
theorem hostdot_apply (x0 : FVec Ideal S16384x128 .f32) (x2 : FVec Ideal S128x128 .f32) (r : Fin 16384) (f : Fin 128) :
    Host.dotGeneral (F := Ideal) dot_S16384x128_S128x128_S16384x128_1_0_0_1_n_n none x0 x2 (ix2 r f)
      = Cert.Gcn.xw x0 x2 r f := by
  unfold Cert.Gcn.xw
  simp only [Host.dotGeneral]
  rw [Ideal.dotGeneral_apply, ← Equiv.sum_comp (ValueIdx.contrEquiv1 dot_S16384x128_S128x128_S16384x128_1_0_0_1_n_n 128 rfl rfl).symm]
  refine Finset.sum_congr rfl fun k _ => ?_
  have hk := ValueIdx.contrEquiv1_symm_val dot_S16384x128_S128x128_S16384x128_1_0_0_1_n_n 128 rfl rfl k
  have el : dot_S16384x128_S128x128_S16384x128_1_0_0_1_n_n.lhsIdx (ix2 r f) ((ValueIdx.contrEquiv1 dot_S16384x128_S128x128_S16384x128_1_0_0_1_n_n 128 rfl rfl).symm k) = ix2 r k := funext fun a => Fin.ext (by
    match a with
    | ⟨0, _⟩ => exact xw_lhs_0 _ _
    | ⟨1, _⟩ => exact (xw_lhs_1 _ _).trans hk)
  have er : dot_S16384x128_S128x128_S16384x128_1_0_0_1_n_n.rhsIdx (ix2 r f) ((ValueIdx.contrEquiv1 dot_S16384x128_S128x128_S16384x128_1_0_0_1_n_n 128 rfl rfl).symm k) = ix2 k f := funext fun a => Fin.ext (by
    match a with
    | ⟨0, _⟩ => exact (xw_rhs_0 _ _).trans hk
    | ⟨1, _⟩ => exact xw_rhs_1 _ _)
  rw [el, er]

/-! ## The stretch, buffer by buffer -/

-- the buffers' contents before the stretch
variable (Wv : Valuation τ sig (Elt Ideal))

/-- The product's array after the stretch: XW of the features and the weights as they stood before it. -/
theorem after_main_v1 :
    (StableHlo.after (hostOps1 (F := Ideal)) Wv main_v1 : S16384x128.Idx → EReal)
      = fun i => Cert.Gcn.xw (Wv main_arg0) (Wv main_arg2) (i 0) (i 1) := by
  have e : (StableHlo.after (hostOps1 (F := Ideal)) Wv main_v1 : S16384x128.Idx → EReal)
      = Host.dotGeneral (F := Ideal) (φ₁ := .f32) (φ₂ := .f32) dot_S16384x128_S128x128_S16384x128_1_0_0_1_n_n none (Wv main_arg0) (Wv main_arg2) := by
    after_results
  rw [e]
  funext i
  obtain ⟨r, f, rfl⟩ : ∃ (r : Fin 16384) (f : Fin 128), i = ix2 r f := ⟨i 0, i 1, eq_ix2 i⟩
  exact hostdot_apply _ _ r f

/-- The bias row after the stretch: the bias as it stood before it. -/
theorem after_main_v2 :
    (StableHlo.after (hostOps1 (F := Ideal)) Wv main_v2 : S1x128.Idx → EReal)
      = fun i => (Wv main_arg3 : S128.Idx → EReal) (ix1 (i 1)) := by
  have e : (StableHlo.after (hostOps1 (F := Ideal)) Wv main_v2 : S1x128.Idx → EReal)
      = shapeCast S1x128 (Wv main_arg3 : S128.Idx → EReal) shapeCasts_S128_S1x128 := by
    after_results
    rfl
  rw [e]
  funext i
  obtain ⟨z, q, rfl⟩ : ∃ (z : Fin 1) (q : Fin 128), i = ix2 z q := ⟨i 0, i 1, eq_ix2 i⟩
  exact shapeCast_a_1a_apply _ _ z q

/-- The stretch writes neither the adjacency nor the normaliser vector. -/
theorem after_main_arg1 : StableHlo.after (hostOps1 (F := Ideal)) Wv main_arg1 = Wv main_arg1 :=
  StableHlo.after_of_writes_sub hostOps1 _ hostOps1_writes (by decide)
theorem after_main_v0 : StableHlo.after (hostOps1 (F := Ideal)) Wv main_v0 = Wv main_v0 :=
  StableHlo.after_of_writes_sub hostOps1 _ hostOps1_writes (by decide)

end Cert.KernelIdeal.Hand

end
-- ==== Proof.RunVals.lean ====
/-
  The second region's entry contents as functions of the arguments, on the extended reals.

  When the second region starts, the adjacency still holds the argument; the normaliser vector holds what the
  first region wrote, rsqrt (1 + row sum) of the adjacency row by row; the product array holds X · W of the
  features and the weights; and the bias row holds the bias. Each is read through the chain of valuations the run
  goes through: the launch contents, the first region's output put in place, then the host stretch.
-/
import proofs.«150998_j28157805593140_2_alg».proof.Proof.RunAll
import proofs.«150998_j28157805593140_2_alg».proof.Proof.R0Value
import proofs.«150998_j28157805593140_2_alg».proof.Proof.HostVals
import proofs.«150998_j28157805593140_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

-- the launch memory
variable (m : (ℓ : Loc nD τ sig) → Buf (Elt Ideal) ℓ)

/-- The adjacency is still the argument: neither the first region nor the host stretch writes it. -/
theorem VB_arg1 (c : Dev nD) :
    (VB m c main_arg1 : S16384x16384.Idx → EReal) = m ((c : Thread nD τ).loc main_arg1) := by
  show W2 m c main_arg1 = _
  unfold W2
  rw [after_main_arg1, W1_of m c main_arg1 (by decide)]

/-- The normaliser vector is what the first region computed from the argument adjacency; the host stretch does not
    write it. -/
theorem VB_v0 (c : Dev nD) :
    (VB m c main_v0 : S16384x1.Idx → EReal) = fun i => Cert.Gcn.dK (m ((c : Thread nD τ).loc main_arg1)) (i 0) := by
  show W2 m c main_v0 = _
  unfold W2
  rw [after_main_v0, W1_same]
  unfold X0
  exact final0 (VA m) c

/-- The product array is X · W of the argument features and weights. -/
theorem VB_v1 (c : Dev nD) :
    (VB m c main_v1 : S16384x128.Idx → EReal)
      = fun i => Cert.Gcn.xw (m ((c : Thread nD τ).loc main_arg0)) (m ((c : Thread nD τ).loc main_arg2)) (i 0) (i 1) := by
  show W2 m c main_v1 = _
  unfold W2
  refine (after_main_v1 (W1 m c)).trans ?_
  rw [W1_of m c main_arg0 (by decide), W1_of m c main_arg2 (by decide)]

/-- The bias row is the argument bias. -/
theorem VB_v2 (c : Dev nD) :
    (VB m c main_v2 : S1x128.Idx → EReal) = fun i => (m ((c : Thread nD τ).loc main_arg3) : S128.Idx → EReal) (ix1 (i 1)) := by
  show W2 m c main_v2 = _
  unfold W2
  refine (after_main_v2 (W1 m c)).trans ?_
  rw [W1_of m c main_arg3 (by decide)]

end Cert.KernelIdeal.Hand

end
-- ==== Proof.R1Pieces.lean ====
/-
  What each control case of the aggregation kernel leaves, as the body's arithmetic of the point's blocks:
  the accumulator after a step is the step's product added to what it held (to zero at the first step), and the output
  tile at the last step is the epilogue of the finished accumulator.
-/
import proofs.«150998_j28157805593140_2_alg».proof.Proof.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem hz2 : (![0, 0] : Fin 2 → Nat) = fun _ => 0 := by funext a; fin_cases a <;> rfl

/-- Reading the accumulator held whole at X gives X. -/
theorem scratch_read_unread (h : (scM1 : Memref sig .tc .vmem S1024x128 .f32).IsWhole) (X : Vec F S1024x128 .f32) :
    View.read (Elt F) (View.whole cc1_scratch0) (h.unread X) = X := h.read_unread X

/-- After the first step: the product added to the freshly zeroed accumulator. -/
theorem soutA_eq (c : Dev nD) (t : Fin cfg1.N) (hc0 : cond1_0 (grid1.coords t)) (hc1 : ¬cond1_1 (grid1.coords t)) :
    soutA V c t hc0 hc1 = k1_pay2 (iblk1 V c 3 t) (iblk1 V c 1 t) (iblk1 V c 0 t) (k1_pay1 (F := F)) := by
  unfold soutA
  rw [View.read_writes_eq_canon _ _ _ (scoverA V c t hc0 hc1)]
  unfold kernelRun1_A
  dsimp only
  sl_unfold_words
  rw [View.canon_cons_unit_zero hz2]
  simp only [View.readAt_eq_ld, Memref.IsWhole.read_unread, scratch_read_unread, View.ld_unit_zero (S := S2048x1) hz2, View.ld_unit_zero (S := S2048x128) hz2,
    View.ld_unit_zero (S := S1024x2048) hz2, View.ld_unit_zero (S := S1024x128) hz2, View.ld_unit_zero (S := S1024x1) hz2, View.ld_unit_zero (S := S1x128) hz2]
  rw [View.readCov_unit_zero (S := S1024x128) _ hz2]

/-- After a middle step: the product added to what the step before left. -/
theorem soutB_eq (c : Dev nD) (t : Fin cfg1.N) (hc0 : ¬cond1_0 (grid1.coords t)) (hc1 : ¬cond1_1 (grid1.coords t)) (xs : Vec F S1024x128 .f32) :
    soutB V c t hc0 hc1 xs = k1_pay2 (iblk1 V c 3 t) (iblk1 V c 1 t) (iblk1 V c 0 t) xs := by
  unfold soutB
  rw [View.read_writes_eq_canon _ _ _ (scoverB V c t hc0 hc1 xs)]
  unfold kernelRun1_B
  dsimp only
  sl_unfold_words
  rw [View.canon_unit_zero hz2]
  simp only [View.readAt_eq_ld, Memref.IsWhole.read_unread, scratch_read_unread, View.ld_unit_zero (S := S2048x1) hz2, View.ld_unit_zero (S := S2048x128) hz2,
    View.ld_unit_zero (S := S1024x2048) hz2, View.ld_unit_zero (S := S1024x128) hz2, View.ld_unit_zero (S := S1024x1) hz2, View.ld_unit_zero (S := S1x128) hz2]

/-- After the last step the accumulator holds the last product added to what the step before left, -/
theorem soutC_eq (c : Dev nD) (t : Fin cfg1.N) (hc0 : ¬cond1_0 (grid1.coords t)) (hc1 : cond1_1 (grid1.coords t)) (xs : Vec F S1024x128 .f32) :
    soutC V c t hc0 hc1 xs = k1_pay2 (iblk1 V c 3 t) (iblk1 V c 1 t) (iblk1 V c 0 t) xs := by
  unfold soutC
  rw [View.read_writes_eq_canon _ _ _ (scoverC V c t hc0 hc1 xs)]
  unfold kernelRun1_C
  dsimp only
  sl_unfold_words
  rw [View.canon_unit_zero hz2]
  simp only [View.readAt_eq_ld, Memref.IsWhole.read_unread, scratch_read_unread, View.ld_unit_zero (S := S2048x1) hz2, View.ld_unit_zero (S := S2048x128) hz2,
    View.ld_unit_zero (S := S1024x2048) hz2, View.ld_unit_zero (S := S1024x128) hz2, View.ld_unit_zero (S := S1024x1) hz2, View.ld_unit_zero (S := S1x128) hz2]

/-- and the output tile the epilogue of that accumulator: self-loop term, row scaling, bias, clamp at zero. -/
theorem outC_eq (c : Dev nD) (t : Fin cfg1.N) (hc0 : ¬cond1_0 (grid1.coords t)) (hc1 : cond1_1 (grid1.coords t)) (xs : Vec F S1024x128 .f32) :
    outC V c t hc0 hc1 xs = k1_pay3 (iblk1 V c 4 t) (iblk1 V c 2 t) (k1_pay2 (iblk1 V c 3 t) (iblk1 V c 1 t) (iblk1 V c 0 t) xs) (iblk1 V c 4 t) (iblk1 V c 5 t) := by
  unfold outC
  rw [View.read_writes_eq_canon _ _ _ (coverC V c t hc0 hc1 xs)]
  unfold kernelRun1_C
  dsimp only
  sl_unfold_words
  rw [View.canon_unit_zero hz2]
  simp only [View.readAt_eq_ld, Memref.IsWhole.read_unread, scratch_read_unread, View.ld_unit_zero (S := S2048x1) hz2, View.ld_unit_zero (S := S2048x128) hz2,
    View.ld_unit_zero (S := S1024x2048) hz2, View.ld_unit_zero (S := S1024x128) hz2, View.ld_unit_zero (S := S1024x1) hz2, View.ld_unit_zero (S := S1x128) hz2]
  rw [View.readCov_unit_zero (S := S1024x128) _ hz2]

end Cert.KernelIdeal.Hand

end
-- ==== Proof.R1Pay.lean ====
/-
  The three values the second kernel body stores, read at an index (p, q) of the [1024, 128] tile.

  * The first is the zero tile the accumulator starts from.
  * The second is one step of the neighbour sum: the accumulator plus the product of the adjacency tile with the
    feature tile whose rows were first scaled by the column vector d; read at (p, q) the product is the sum over the
    2048 columns l of the block of  a (p, l) * (d l * xw (l, q)).  The conversions to the narrower format are the
    identity on the extended reals, and the product starts from the zero tile.
  * The third is the epilogue: the self-loop term d p * xw (p, q) is added, the row is scaled by d p, the bias row is
    added and the result is clamped at 0.

  A column vector [a, 1] broadcast along the rows of an [a, b] tile reads, at (p, c), its entry p.
-/
import proofs.«150998_j28157805593140_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The accumulator's first value: the zero tile. -/
theorem pay1_apply (p : Fin 1024) (q : Fin 128) : k1_pay1 (F := Ideal) (ix2 p q) = 0 := by
  simp only [k1_pay1, shapeCast_self]
  rw [broadcast_apply]
  exact Ideal.ofBits_zero_f32

/-! ## The product's operand indices -/

theorem lhs_dot_0 (i : S1024x128.Idx) (k : dot_S1024x2048_S2048x128_S1024x128_1_0_0_1_n_n.contr.Idx) :
    (dot_S1024x2048_S2048x128_S1024x128_1_0_0_1_n_n.lhsIdx i k 0).val = (i 0).val := by
  unfold DotDims.lhsIdx
  rw [dif_neg (show ¬(0 : Fin S1024x2048.rank) ∈ dot_S1024x2048_S2048x128_S1024x128_1_0_0_1_n_n.lhsBatch by decide),
    dif_pos (show (0 : Fin S1024x2048.rank) ∈ dot_S1024x2048_S2048x128_S1024x128_1_0_0_1_n_n.lhsNonContracting by decide)]
  rfl

theorem lhs_dot_1 (i : S1024x128.Idx) (k : dot_S1024x2048_S2048x128_S1024x128_1_0_0_1_n_n.contr.Idx) :
    (dot_S1024x2048_S2048x128_S1024x128_1_0_0_1_n_n.lhsIdx i k 1).val = (k ⟨0, by decide⟩).val :=
  dot_S1024x2048_S2048x128_S1024x128_1_0_0_1_n_n.lhsIdx_val_of_single rfl i k

theorem rhs_dot_0 (i : S1024x128.Idx) (k : dot_S1024x2048_S2048x128_S1024x128_1_0_0_1_n_n.contr.Idx) :
    (dot_S1024x2048_S2048x128_S1024x128_1_0_0_1_n_n.rhsIdx i k 0).val = (k ⟨0, by decide⟩).val :=
  dot_S1024x2048_S2048x128_S1024x128_1_0_0_1_n_n.rhsIdx_val_of_single rfl i k

theorem rhs_dot_1 (i : S1024x128.Idx) (k : dot_S1024x2048_S2048x128_S1024x128_1_0_0_1_n_n.contr.Idx) :
    (dot_S1024x2048_S2048x128_S1024x128_1_0_0_1_n_n.rhsIdx i k 1).val = (i 1).val := by
  unfold DotDims.rhsIdx
  rw [dif_neg (show ¬(1 : Fin S2048x128.rank) ∈ dot_S1024x2048_S2048x128_S1024x128_1_0_0_1_n_n.rhsBatch by decide),
    dif_pos (show (1 : Fin S2048x128.rank) ∈ dot_S1024x2048_S2048x128_S1024x128_1_0_0_1_n_n.rhsNonContracting by decide)]
  rfl

/-- The product into the zero tile, read at (p, q): the sum over the block's columns. -/
theorem dot_zero_apply (L : FVec Ideal S1024x2048 .bf16) (R : FVec Ideal S2048x128 .bf16) (p : Fin 1024) (q : Fin 128) :
    FloatOps.matmul dot_S1024x2048_S2048x128_S1024x128_1_0_0_1_n_n none L R (constant S1024x128 .f32 0x00000000#32) (ix2 p q)
      = ∑ l : Fin 2048, L (ix2 p l) * R (ix2 l q) := by
  rw [Ideal.matmul_constant_zero_apply,
    ← Equiv.sum_comp (ValueIdx.contrEquiv1 dot_S1024x2048_S2048x128_S1024x128_1_0_0_1_n_n 2048 rfl rfl).symm]
  refine Finset.sum_congr rfl fun l _ => ?_
  have hl := ValueIdx.contrEquiv1_symm_val dot_S1024x2048_S2048x128_S1024x128_1_0_0_1_n_n 2048 rfl rfl l
  have el : dot_S1024x2048_S2048x128_S1024x128_1_0_0_1_n_n.lhsIdx (ix2 p q)
      ((ValueIdx.contrEquiv1 dot_S1024x2048_S2048x128_S1024x128_1_0_0_1_n_n 2048 rfl rfl).symm l) = ix2 p l :=
    funext fun a => Fin.ext (by
      match a with
      | ⟨0, _⟩ => exact lhs_dot_0 _ _
      | ⟨1, _⟩ => exact (lhs_dot_1 _ _).trans hl)
  have er : dot_S1024x2048_S2048x128_S1024x128_1_0_0_1_n_n.rhsIdx (ix2 p q)
      ((ValueIdx.contrEquiv1 dot_S1024x2048_S2048x128_S1024x128_1_0_0_1_n_n 2048 rfl rfl).symm l) = ix2 l q :=
    funext fun a => Fin.ext (by
      match a with
      | ⟨0, _⟩ => exact (rhs_dot_0 _ _).trans hl
      | ⟨1, _⟩ => exact rhs_dot_1 _ _)
  rw [el, er]

/-- One step of the neighbour sum. -/
theorem pay2_apply (x3 : Vec Ideal S2048x1 .f32) (x1 : Vec Ideal S2048x128 .f32) (x0 : Vec Ideal S1024x2048 .f32)
    (acc : Vec Ideal S1024x128 .f32) (p : Fin 1024) (q : Fin 128) :
    k1_pay2 x3 x1 x0 acc (ix2 p q)
      = acc (ix2 p q) + ∑ l : Fin 2048, x0 (ix2 p l) * (x3 (ix2 l (0 : Fin 1)) * x1 (ix2 l q)) := by
  simp only [k1_pay2, shapeCast_self]
  rw [addf_apply]
  refine congrArg (acc (ix2 p q) + ·) ?_
  refine (dot_zero_apply _ _ p q).trans (Finset.sum_congr rfl fun l _ => ?_)
  rw [truncf_apply, truncf_apply, mulf_apply, broadcastTo_a1_ab_apply]

/-- The epilogue. -/
theorem pay3_apply (x4 : Vec Ideal S1024x1 .f32) (x2 : Vec Ideal S1024x128 .f32) (acc : Vec Ideal S1024x128 .f32)
    (x4' : Vec Ideal S1024x1 .f32) (x5 : Vec Ideal S1x128 .f32) (p : Fin 1024) (q : Fin 128) :
    k1_pay3 x4 x2 acc x4' x5 (ix2 p q)
      = max (x4' (ix2 p (0 : Fin 1)) * (acc (ix2 p q) + x4 (ix2 p (0 : Fin 1)) * x2 (ix2 p q))
          + x5 (ix2 (0 : Fin 1) q)) 0 := by
  simp only [k1_pay3, shapeCast_self]
  rw [maximumf_apply, addf_apply, mulf_apply, addf_apply, mulf_apply, broadcast_apply, broadcastTo_a1_ab_apply,
    broadcastTo_a1_ab_apply, broadcastTo_1b_ab_apply]
  exact congrArg (max _) Ideal.ofBits_zero_f32

end Cert.KernelIdeal.Hand

end
-- ==== Proof.R1Acc.lean ====
/-
  The accumulator through a row block, on the extended reals.

  At point t = 8 i + k the body adds to the accumulator the product of the adjacency tile (rows of block i, columns
  of block k) with the column-scaled feature tile of block k. After point t the accumulator therefore holds, entry by
  entry, the sum of the products of the points 8 i … t; the first point of the row block starts it from zero.
-/
import proofs.«150998_j28157805593140_2_alg».proof.Proof.R1Pieces
import proofs.«150998_j28157805593140_2_alg».proof.Proof.R1Pay

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the buffers' contents when the region is entered
variable (V : (c : Dev nD) → (b : Ref sig .tc) → Buf (Elt Ideal) ((c : Thread nD τ).loc b))

/-- The product of an adjacency tile with a column-scaled feature tile, at entry (p, q). -/
def prodAt (x0 : Vec Ideal S1024x2048 .f32) (x3 : Vec Ideal S2048x1 .f32) (x1 : Vec Ideal S2048x128 .f32) (p : Fin 1024) (q : Fin 128) : EReal :=
  ∑ l : Fin 2048, x0 (ix2 p l) * (x3 (ix2 l (0 : Fin 1)) * x1 (ix2 l q))

/-- The product the body adds at point t, at entry (p, q) of the tile. -/
def Pt (c : Dev nD) (t : Fin cfg1.N) (p : Fin 1024) (q : Fin 128) : EReal :=
  prodAt (iblk1 V c 0 t) (iblk1 V c 3 t) (iblk1 V c 1 t) p q

/-- The same at a position given as a natural number (zero beyond the grid). -/
def PtN (c : Dev nD) (n : ℕ) (p : Fin 1024) (q : Fin 128) : EReal :=
  if h : n < cfg1.N then Pt V c ⟨n, h⟩ p q else 0

theorem PtN_of_lt (c : Dev nD) (n : ℕ) (h : n < cfg1.N) (p : Fin 1024) (q : Fin 128) : PtN V c n p q = Pt V c ⟨n, h⟩ p q := by
  unfold PtN; rw [dif_pos h]

/-- The first point of a row block: the accumulator holds that point's product. -/
theorem acc_first (c : Dev nD) (t : Fin cfg1.N) (h0 : t.val % 8 = 0) (p : Fin 1024) (q : Fin 128) :
    ((outsAt1 V c t.val t.isLt).2 : Vec Ideal S1024x128 .f32) (ix2 p q) = Pt V c t p q := by
  rw [outsAt1_A V c t h0]
  dsimp only
  rw [soutA_eq, pay2_apply, pay1_apply, zero_add]
  rfl

/-- A later point: what the point before left, plus this point's product. -/
theorem acc_step (c : Dev nD) (n : ℕ) (hn : n + 1 < cfg1.N) (h0 : ¬(n + 1) % 8 = 0) (p : Fin 1024) (q : Fin 128) :
    ((outsAt1 V c (n + 1) hn).2 : Vec Ideal S1024x128 .f32) (ix2 p q)
      = ((outsAt1 V c n (Nat.lt_of_succ_lt hn)).2 : Vec Ideal S1024x128 .f32) (ix2 p q) + Pt V c ⟨n + 1, hn⟩ p q := by
  by_cases h1 : (n + 1) % 8 = 7
  · rw [outsAt1_C V c ⟨n + 1, hn⟩ h0 h1]
    dsimp only
    rw [soutC_eq, pay2_apply]
    rfl
  · rw [outsAt1_B V c ⟨n + 1, hn⟩ h0 h1]
    dsimp only
    rw [soutB_eq, pay2_apply]
    rfl

/-- After position n the accumulator holds the products of the positions of its row block up to n, summed. -/
theorem acc_sum (c : Dev nD) (p : Fin 1024) (q : Fin 128) : ∀ (n : ℕ) (hn : n < cfg1.N),
    ((outsAt1 V c n hn).2 : Vec Ideal S1024x128 .f32) (ix2 p q) = ∑ j ∈ Finset.range (n % 8 + 1), PtN V c (n - n % 8 + j) p q := by
  intro n
  induction n with
  | zero =>
    intro hn
    rw [acc_first V c ⟨0, hn⟩ rfl p q]
    simp only [Nat.zero_mod, Nat.sub_zero, Finset.range_one, Finset.sum_singleton, Nat.add_zero, zero_add]
    exact (PtN_of_lt V c 0 hn p q).symm
  | succ n ih =>
    intro hn
    by_cases h0 : (n + 1) % 8 = 0
    · rw [acc_first V c ⟨n + 1, hn⟩ h0 p q, h0]
      simp only [Nat.sub_zero, Finset.range_one, Finset.sum_singleton, Nat.add_zero, zero_add]
      exact (PtN_of_lt V c (n + 1) hn p q).symm
    · rw [acc_step V c n hn h0 p q, ih (Nat.lt_of_succ_lt hn)]
      have e : (n + 1) % 8 = n % 8 + 1 := by omega
      have e2 : n + 1 - (n % 8 + 1) = n - n % 8 := by omega
      have e3 : n - n % 8 + (n % 8 + 1) = n + 1 := by omega
      rw [e, e2, Finset.sum_range_succ (fun j => PtN V c (n - n % 8 + j) p q) (n % 8 + 1), e3, PtN_of_lt V c (n + 1) hn p q]

end Cert.KernelIdeal.Hand

end
-- ==== Proof.R1Blocks.lean ====
/-
  The second region's windows, block by block.

  The grid is 16 × 8 with the second coordinate innermost: point t is row block t / 8 and contraction block t % 8.
  Each input window's block at point t is read off its array at explicit coordinates — the block's index on an
  axis times the block's size on that axis plus the coordinate inside the block — and the output window's block
  at point t is rows 1024·(t/8) … 1024·(t/8)+1023 of the result, written back at the last contraction step
  t % 8 = 7, so the sixteen written blocks cover the result.
-/
import proofs.«150998_j28157805593140_2_alg».proof.Proof.R1Frame
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-! ## The printed index maps over the grid -/

/-- The grid has 128 points. -/
theorem lt_N1 (t : Fin cfg1.N) : t.val < 128 := lt_of_lt_of_eq t.isLt N_1

/-- Window 0 (the adjacency) is at block (t / 8, t % 8). -/
theorem idx1_0 : ∀ t : Fin cfg1.N, win1_0.index t (0 : Fin 2) = t.val / 8 ∧ win1_0.index t (1 : Fin 2) = t.val % 8 :=
  (by decide +kernel : ∀ t : Fin grid1.N, _)
/-- Window 1 (the transformed features, contraction rows) is at block (t % 8, 0). -/
theorem idx1_1 : ∀ t : Fin cfg1.N, win1_1.index t (0 : Fin 2) = t.val % 8 ∧ win1_1.index t (1 : Fin 2) = 0 :=
  (by decide +kernel : ∀ t : Fin grid1.N, _)
/-- Window 2 (the transformed features, output rows) is at block (t / 8, 0). -/
theorem idx1_2 : ∀ t : Fin cfg1.N, win1_2.index t (0 : Fin 2) = t.val / 8 ∧ win1_2.index t (1 : Fin 2) = 0 :=
  (by decide +kernel : ∀ t : Fin grid1.N, _)
/-- Window 3 (the normaliser, contraction rows) is at block (t % 8, 0). -/
theorem idx1_3 : ∀ t : Fin cfg1.N, win1_3.index t (0 : Fin 2) = t.val % 8 ∧ win1_3.index t (1 : Fin 2) = 0 :=
  (by decide +kernel : ∀ t : Fin grid1.N, _)
/-- Window 4 (the normaliser, output rows) is at block (t / 8, 0). -/
theorem idx1_4 : ∀ t : Fin cfg1.N, win1_4.index t (0 : Fin 2) = t.val / 8 ∧ win1_4.index t (1 : Fin 2) = 0 :=
  (by decide +kernel : ∀ t : Fin grid1.N, _)
/-- Window 5 (the bias row) is at block (0, 0). -/
theorem idx1_5 : ∀ t : Fin cfg1.N, win1_5.index t (0 : Fin 2) = 0 ∧ win1_5.index t (1 : Fin 2) = 0 :=
  (by decide +kernel : ∀ t : Fin grid1.N, _)
/-- Window 6 (the result) is at block (t / 8, 0). -/
theorem idx1_6 : ∀ t : Fin cfg1.N, win1_6.index t (0 : Fin 2) = t.val / 8 ∧ win1_6.index t (1 : Fin 2) = 0 :=
  (by decide +kernel : ∀ t : Fin grid1.N, _)

/-! ## Each input block at explicit coordinates -/

/-- The adjacency block at point t, at (p, l), is the adjacency at row 1024·(t/8) + p, column 2048·(t%8) + l. -/
theorem iblk1_0_apply (c : Dev nD) (t : Fin cfg1.N) (p : Fin 1024) (l : Fin 2048) (r j : Fin 16384)
    (hr : r.val = 1024 * (t.val / 8) + p.val) (hj : j.val = 2048 * (t.val % 8) + l.val) :
    (iblk1 V c 0 t : Vec F S1024x2048 .f32) (ix2 p l) = (V c main_arg1 : S16384x16384.Idx → Elt F .f32) (ix2 r j) := by
  obtain ⟨e0, e1⟩ := idx1_0 t
  unfold iblk1
  rw [View.read_apply]
  show V c main_arg1 _ = V c main_arg1 _
  refine congrArg (V c main_arg1) (funext fun a => Fin.ext ?_)
  match a with
  | ⟨0, _⟩ => show win1_0.index t (0 : Fin 2) * 1024 + 1 * p.val = r.val; rw [e0, hr]; omega
  | ⟨1, _⟩ => show win1_0.index t (1 : Fin 2) * 2048 + 1 * l.val = j.val; rw [e1, hj]; omega

/-- The contraction-row block of the transformed features at point t, at (l, q), is the array at row 2048·(t%8) + l. -/
theorem iblk1_1_apply (c : Dev nD) (t : Fin cfg1.N) (l : Fin 2048) (q : Fin 128) (j : Fin 16384)
    (hj : j.val = 2048 * (t.val % 8) + l.val) :
    (iblk1 V c 1 t : Vec F S2048x128 .f32) (ix2 l q) = (V c main_v1 : S16384x128.Idx → Elt F .f32) (ix2 j q) := by
  obtain ⟨e0, e1⟩ := idx1_1 t
  unfold iblk1
  rw [View.read_apply]
  show V c main_v1 _ = V c main_v1 _
  refine congrArg (V c main_v1) (funext fun a => Fin.ext ?_)
  match a with
  | ⟨0, _⟩ => show win1_1.index t (0 : Fin 2) * 2048 + 1 * l.val = j.val; rw [e0, hj]; omega
  | ⟨1, _⟩ => show win1_1.index t (1 : Fin 2) * 128 + 1 * q.val = q.val; rw [e1]; omega

/-- The output-row block of the transformed features at point t, at (p, q), is the array at row 1024·(t/8) + p. -/
theorem iblk1_2_apply (c : Dev nD) (t : Fin cfg1.N) (p : Fin 1024) (q : Fin 128) (r : Fin 16384)
    (hr : r.val = 1024 * (t.val / 8) + p.val) :
    (iblk1 V c 2 t : Vec F S1024x128 .f32) (ix2 p q) = (V c main_v1 : S16384x128.Idx → Elt F .f32) (ix2 r q) := by
  obtain ⟨e0, e1⟩ := idx1_2 t
  unfold iblk1
  rw [View.read_apply]
  show V c main_v1 _ = V c main_v1 _
  refine congrArg (V c main_v1) (funext fun a => Fin.ext ?_)
  match a with
  | ⟨0, _⟩ => show win1_2.index t (0 : Fin 2) * 1024 + 1 * p.val = r.val; rw [e0, hr]; omega
  | ⟨1, _⟩ => show win1_2.index t (1 : Fin 2) * 128 + 1 * q.val = q.val; rw [e1]; omega

/-- The contraction-row block of the normaliser at point t, at (l, u), is the array at row 2048·(t%8) + l. -/
theorem iblk1_3_apply (c : Dev nD) (t : Fin cfg1.N) (l : Fin 2048) (u : Fin 1) (j : Fin 16384)
    (hj : j.val = 2048 * (t.val % 8) + l.val) :
    (iblk1 V c 3 t : Vec F S2048x1 .f32) (ix2 l u) = (V c main_v0 : S16384x1.Idx → Elt F .f32) (ix2 j u) := by
  obtain ⟨e0, e1⟩ := idx1_3 t
  unfold iblk1
  rw [View.read_apply]
  show V c main_v0 _ = V c main_v0 _
  refine congrArg (V c main_v0) (funext fun a => Fin.ext ?_)
  match a with
  | ⟨0, _⟩ => show win1_3.index t (0 : Fin 2) * 2048 + 1 * l.val = j.val; rw [e0, hj]; omega
  | ⟨1, _⟩ => show win1_3.index t (1 : Fin 2) * 1 + 1 * u.val = u.val; rw [e1]; omega

/-- The output-row block of the normaliser at point t, at (p, u), is the array at row 1024·(t/8) + p. -/
theorem iblk1_4_apply (c : Dev nD) (t : Fin cfg1.N) (p : Fin 1024) (u : Fin 1) (r : Fin 16384)
    (hr : r.val = 1024 * (t.val / 8) + p.val) :
    (iblk1 V c 4 t : Vec F S1024x1 .f32) (ix2 p u) = (V c main_v0 : S16384x1.Idx → Elt F .f32) (ix2 r u) := by
  obtain ⟨e0, e1⟩ := idx1_4 t
  unfold iblk1
  rw [View.read_apply]
  show V c main_v0 _ = V c main_v0 _
  refine congrArg (V c main_v0) (funext fun a => Fin.ext ?_)
  match a with
  | ⟨0, _⟩ => show win1_4.index t (0 : Fin 2) * 1024 + 1 * p.val = r.val; rw [e0, hr]; omega
  | ⟨1, _⟩ => show win1_4.index t (1 : Fin 2) * 1 + 1 * u.val = u.val; rw [e1]; omega

/-- The bias block at any point is the whole bias row. -/
theorem iblk1_5_apply (c : Dev nD) (t : Fin cfg1.N) (z : Fin 1) (q : Fin 128) :
    (iblk1 V c 5 t : Vec F S1x128 .f32) (ix2 z q) = (V c main_v2 : S1x128.Idx → Elt F .f32) (ix2 z q) := by
  obtain ⟨e0, e1⟩ := idx1_5 t
  unfold iblk1
  rw [View.read_apply]
  show V c main_v2 _ = V c main_v2 _
  refine congrArg (V c main_v2) (funext fun a => Fin.ext ?_)
  match a with
  | ⟨0, _⟩ => show win1_5.index t (0 : Fin 2) * 1 + 1 * z.val = z.val; rw [e0]; omega
  | ⟨1, _⟩ => show win1_5.index t (1 : Fin 2) * 128 + 1 * q.val = q.val; rw [e1]; omega

/-! ## The output window's blocks -/

/-- Where the output block at point t puts its entry (p, q): row 1024·(t/8) + p, column q of the result. -/
theorem emb1_6 (t : Fin cfg1.N) (p : Fin 1024) (q : Fin 128) :
    (((cfg1.win 6).blk t).view.emb (ix2 p q) (0 : Fin 2)).val = 1024 * (t.val / 8) + p.val
      ∧ (((cfg1.win 6).blk t).view.emb (ix2 p q) (1 : Fin 2)).val = q.val := by
  obtain ⟨e0, e1⟩ := idx1_6 t
  constructor
  · show win1_6.index t (0 : Fin 2) * 1024 + 1 * p.val = _; rw [e0]; omega
  · show win1_6.index t (1 : Fin 2) * 128 + 1 * q.val = _; rw [e1]; omega

/-- An index of the result is in point t's block iff each coordinate is in the block's range on its axis. -/
theorem mem_blk1_6 (t : Fin cfg1.N) (i : S16384x128.Idx) :
    i ∈ ((cfg1.win 6).blk t).view.set ↔ ∀ a : Fin 2, win1_6.index t a * S1024x128.size a ≤ (i a).val ∧ (i a).val < win1_6.index t a * S1024x128.size a + S1024x128.size a := by
  show i ∈ ((View.whole main_v3).slice (win1_6.rect t)).set ↔ _
  rw [View.set_slice_whole, Rect.mem_set_unit]
  exact Iff.rfl

/-- The same in closed form: the row is in row block t / 8. -/
theorem mem_blk1_6_iff (t : Fin cfg1.N) (i : S16384x128.Idx) :
    i ∈ ((cfg1.win 6).blk t).view.set ↔ 1024 * (t.val / 8) ≤ (i 0).val ∧ (i 0).val < 1024 * (t.val / 8) + 1024 := by
  obtain ⟨e0, e1⟩ := idx1_6 t
  have hi1 : (i 1).val < 128 := (i 1).isLt
  rw [mem_blk1_6]
  constructor
  · intro h
    have b0 : win1_6.index t (0 : Fin 2) * 1024 ≤ (i 0).val ∧ (i 0).val < win1_6.index t (0 : Fin 2) * 1024 + 1024 := h 0
    rw [e0] at b0; omega
  · intro h a
    match a with
    | ⟨0, _⟩ =>
      show win1_6.index t (0 : Fin 2) * 1024 ≤ (i 0).val ∧ (i 0).val < win1_6.index t (0 : Fin 2) * 1024 + 1024
      rw [e0]; omega
    | ⟨1, _⟩ =>
      show win1_6.index t (1 : Fin 2) * 128 ≤ (i 1).val ∧ (i 1).val < win1_6.index t (1 : Fin 2) * 128 + 128
      rw [e1]; omega

/-- Row r of the result lies in the block written back at point 8·(r / 1024) + 7, the last contraction step of
    its row block: the written-back blocks cover the result. -/
theorem cover1_6 (i : S16384x128.Idx) :
    ∃ t : Fin cfg1.N, (cfg1.win 6).flush t = true ∧ i ∈ ((cfg1.win 6).blk t).view.set := by
  have hi0 : (i 0).val < 16384 := (i 0).isLt
  have hN : cfg1.N = 128 := N_1
  refine ⟨⟨8 * ((i 0).val / 1024) + 7, by rw [hN]; omega⟩, (flush1_6 _).mpr (by show (8 * ((i 0).val / 1024) + 7) % 8 = 7; omega), ?_⟩
  rw [mem_blk1_6_iff]
  show 1024 * ((8 * ((i 0).val / 1024) + 7) / 8) ≤ (i 0).val ∧ (i 0).val < 1024 * ((8 * ((i 0).val / 1024) + 7) / 8) + 1024
  omega

end Cert.KernelIdeal.Hand

end
-- ==== Proof.BlockSum.lean ====
/-
  A sum over the 16384 columns, cut into 8 consecutive blocks of 2048: column j = 2048 · k + l is the l-th column
  of block k. The kernel adds the neighbour sum up block by block, starting from 0; the two lemmas here bring
  that to the one sum of the layer's formula. Addition of extended reals is commutative and associative, which
  is all that is used.
-/
import Mathlib.Data.EReal.Basic
import Mathlib.Algebra.BigOperators.Fin
import Mathlib.Logic.Equiv.Fin.Basic

noncomputable section

open scoped BigOperators

namespace Cert.Gcn

/-- The sum over all columns is the sum over the blocks of the sums within a block. -/
theorem sum_blocks8 {M : Type*} [AddCommMonoid M] (g : Fin 16384 → M) :
    ∑ j : Fin 16384, g j = ∑ k : Fin 8, ∑ l : Fin 2048, g ⟨2048 * k.val + l.val, by omega⟩ := by
  rw [← Fintype.sum_prod_type' (f := fun (k : Fin 8) (l : Fin 2048) => g ⟨2048 * k.val + l.val, by omega⟩)]
  symm
  refine Fintype.sum_equiv (finProdFinEquiv.trans (finCongr (by norm_num))) _ _ (fun x => ?_)
  obtain ⟨k, l⟩ := x
  refine congrArg g (Fin.ext ?_)
  simp only [Equiv.trans_apply, finCongr_apply, Fin.val_cast, finProdFinEquiv_apply_val]
  omega

/-- Eight partial sums added one after the other, from 0, are their sum. -/
theorem fold8 {M : Type*} [AddCommMonoid M] (P : Fin 8 → M) :
    ((((((((0 + P 0) + P 1) + P 2) + P 3) + P 4) + P 5) + P 6) + P 7) = ∑ k : Fin 8, P k := by
  rw [Fin.sum_univ_eight, zero_add]

end Cert.Gcn

end
-- ==== Proof.R1Final.lean ====
/-
  The result array after the second region.

  At the last contraction step of row block i the accumulator holds, entry by entry, the sum over all eight column
  blocks of the products, that is the whole neighbour sum ∑ j, a r j · (d j · XW j f) of the row r = 1024 i + p; the body
  then adds the self-loop term, scales by d r, adds the bias and clamps at zero, and the pipeline writes the tile back
  to rows 1024 i … 1024 i + 1023 of the result. The sixteen row blocks cover the result.
-/
import proofs.«150998_j28157805593140_2_alg».proof.Proof.R1Acc
import proofs.«150998_j28157805593140_2_alg».proof.Proof.R1Blocks
import proofs.«150998_j28157805593140_2_alg».proof.Proof.BlockSum

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- One term of a row's neighbour sum, from the adjacency, the degree scale (a column) and the transformed features. -/
def nbrTerm (Av : S16384x16384.Idx → EReal) (Dv : S16384x1.Idx → EReal) (XWv : S16384x128.Idx → EReal)
    (r : Fin 16384) (f : Fin 128) (j : Fin 16384) : EReal :=
  Av (ix2 r j) * (Dv (ix2 j (0 : Fin 1)) * XWv (ix2 j f))

/-- A row's neighbour sum. -/
def nbrAt (Av : S16384x16384.Idx → EReal) (Dv : S16384x1.Idx → EReal) (XWv : S16384x128.Idx → EReal)
    (r : Fin 16384) (f : Fin 128) : EReal :=
  ∑ j : Fin 16384, nbrTerm Av Dv XWv r f j

/-- One entry of the layer from the four arrays the region reads: adjacency, degree scale, transformed features,
    bias (a row). -/
def outRow (Av : S16384x16384.Idx → EReal) (Dv : S16384x1.Idx → EReal) (XWv : S16384x128.Idx → EReal) (Bv : S1x128.Idx → EReal)
    (r : Fin 16384) (f : Fin 128) : EReal :=
  max (Dv (ix2 r (0 : Fin 1)) * (nbrAt Av Dv XWv r f + Dv (ix2 r (0 : Fin 1)) * XWv (ix2 r f)) + Bv (ix2 (0 : Fin 1) f)) 0

/-- The epilogue at entry (p, q) of a tile: self-loop term, row scaling, bias, clamp at zero. -/
def epi (x4 : Vec Ideal S1024x1 .f32) (x2 : Vec Ideal S1024x128 .f32) (acc : EReal) (x5 : Vec Ideal S1x128 .f32)
    (p : Fin 1024) (q : Fin 128) : EReal :=
  max (x4 (ix2 p (0 : Fin 1)) * (acc + x4 (ix2 p (0 : Fin 1)) * x2 (ix2 p q)) + x5 (ix2 (0 : Fin 1) q)) 0

-- the buffers' contents when the region is entered
variable (V : (c : Dev nD) → (b : Ref sig .tc) → Buf (Elt Ideal) ((c : Thread nD τ).loc b))

/-- The output tile at the last step, from the accumulator it was computed from. -/
theorem tile_apply (c : Dev nD) (t : Fin cfg1.N) (h7 : t.val % 8 = 7) (p : Fin 1024) (q : Fin 128) :
    ((outsAt1 V c t.val t.isLt).1 : Vec Ideal S1024x128 .f32) (ix2 p q)
      = epi (iblk1 V c 4 t) (iblk1 V c 2 t) (((outsAt1 V c t.val t.isLt).2 : Vec Ideal S1024x128 .f32) (ix2 p q)) (iblk1 V c 5 t) p q := by
  have h0 : ¬t.val % 8 = 0 := by omega
  rw [outsAt1_C V c t h0 h7]
  dsimp only
  rw [outC_eq, pay3_apply, soutC_eq]
  rfl

/-- At the last step of a row block the accumulator holds the whole neighbour sum of each of its rows. -/
theorem acc_full (c : Dev nD) (t : Fin cfg1.N) (h7 : t.val % 8 = 7) (p : Fin 1024) (q : Fin 128) (r : Fin 16384)
    (hr : r.val = 1024 * (t.val / 8) + p.val) :
    ((outsAt1 V c t.val t.isLt).2 : Vec Ideal S1024x128 .f32) (ix2 p q) = nbrAt (V c main_arg1) (V c main_v0) (V c main_v1) r q := by
  have hN : t.val < 128 := lt_N1 t
  unfold nbrAt
  rw [acc_sum V c p q t.val t.isLt, h7, Cert.Gcn.sum_blocks8 (nbrTerm (V c main_arg1) (V c main_v0) (V c main_v1) r q),
    Finset.sum_range (fun j => PtN V c (t.val - 7 + j) p q)]
  refine Finset.sum_congr rfl fun k _ => ?_
  have hk8 : k.val < 8 := k.isLt
  have hk : t.val - 7 + k.val < cfg1.N := by have hN1 : cfg1.N = 128 := N_1; omega
  rw [PtN_of_lt V c _ hk]
  unfold Pt prodAt
  refine Finset.sum_congr rfl fun l _ => ?_
  have hl : l.val < 2048 := l.isLt
  have hd : (t.val - 7 + k.val) / 8 = t.val / 8 := by omega
  have hm : (t.val - 7 + k.val) % 8 = k.val := by omega
  unfold nbrTerm
  rw [iblk1_0_apply V c ⟨t.val - 7 + k.val, hk⟩ p l r ⟨2048 * k.val + l.val, by omega⟩
        (by show r.val = 1024 * ((t.val - 7 + k.val) / 8) + p.val; rw [hd]; exact hr)
        (by show 2048 * k.val + l.val = 2048 * ((t.val - 7 + k.val) % 8) + l.val; rw [hm]),
      iblk1_3_apply V c ⟨t.val - 7 + k.val, hk⟩ l (0 : Fin 1) ⟨2048 * k.val + l.val, by omega⟩
        (by show 2048 * k.val + l.val = 2048 * ((t.val - 7 + k.val) % 8) + l.val; rw [hm]),
      iblk1_1_apply V c ⟨t.val - 7 + k.val, hk⟩ l q ⟨2048 * k.val + l.val, by omega⟩
        (by show 2048 * k.val + l.val = 2048 * ((t.val - 7 + k.val) % 8) + l.val; rw [hm])]

/-- WHAT A WRITING POINT WRITES BACK is its block of the layer — of any function G on the result's indices that is,
    entry by entry, the layer's entry of the arrays the region reads. -/
theorem flushed1_6 (c : Dev nD) (t : Fin cfg1.N) (hf : (cfg1.win 6).flush t = true) (G : S16384x128.Idx → EReal)
    (hG : ∀ i : S16384x128.Idx, G i = outRow (V c main_arg1) (V c main_v0) (V c main_v1) (V c main_v2) (i 0) (i 1)) :
    (dat1 (F := Ideal) V c).flushed 6 t = ((cfg1.win 6).blk t).view.read (Elt Ideal) G := by
  have h7 : t.val % 8 = 7 := (flush1_6 t).mp hf
  have hN : t.val < 128 := lt_N1 t
  show (cfg1.win 6).cut (grid1.coords t) ((dat1 V c).after 6 t) = _
  rw [after1_6]
  funext y
  obtain ⟨p, q, rfl⟩ : ∃ (p : Fin 1024) (q : Fin 128), y = ix2 p q := ⟨y 0, y 1, eq_ix2 y⟩
  obtain ⟨e0, e1⟩ := emb1_6 t p q
  have hp : p.val < 1024 := p.isLt
  have hr : 1024 * (t.val / 8) + p.val < 16384 := by omega
  have er : ((cfg1.win 6).blk t).view.emb (ix2 p q) (0 : Fin 2) = (⟨1024 * (t.val / 8) + p.val, hr⟩ : Fin 16384) := Fin.ext e0
  have eq : ((cfg1.win 6).blk t).view.emb (ix2 p q) (1 : Fin 2) = q := Fin.ext e1
  show ((outsAt1 V c t.val t.isLt).1 : Vec Ideal S1024x128 .f32) (ix2 p q) = G (((cfg1.win 6).blk t).view.emb (ix2 p q))
  rw [hG]
  refine Eq.trans ?_ (congrArg₂ (outRow (V c main_arg1) (V c main_v0) (V c main_v1) (V c main_v2)) er eq).symm
  rw [tile_apply V c t h7 p q, acc_full V c t h7 p q ⟨1024 * (t.val / 8) + p.val, hr⟩ rfl]
  unfold epi outRow
  rw [iblk1_4_apply V c t p (0 : Fin 1) ⟨1024 * (t.val / 8) + p.val, hr⟩ rfl, iblk1_2_apply V c t p q ⟨1024 * (t.val / 8) + p.val, hr⟩ rfl,
    iblk1_5_apply V c t (0 : Fin 1) q]

/-- THE RESULT ARRAY after the region: the layer, entry by entry, of the arrays the region found. -/
theorem final1 (c : Dev nD) :
    (dat1 (F := Ideal) V c).arrAt 6 cfg1.N = (fun i : S16384x128.Idx => outRow (V c main_arg1) (V c main_v0) (V c main_v1) (V c main_v2) (i 0) (i 1)) :=
  (dat1 (F := Ideal) V c).arrAt_eq_of_cover 6 (fun i : S16384x128.Idx => outRow (V c main_arg1) (V c main_v0) (V c main_v1) (V c main_v2) (i 0) (i 1))
    (fun t hf => flushed1_6 V c t hf _ (fun _ => rfl)) cover1_6

end Cert.KernelIdeal.Hand

end
-- ==== Proof.KernelValue.lean ====
/-
  The kernel program's result as a function of its arguments: the layer in the kernel's own form.

  Region 1 is entered with the adjacency as launched, the degree scale d = rsqrt (row sum + 1) that region 0 wrote, the
  transformed features X · W and the bias as a row that the host stretch wrote; its result array is, entry by entry,
  max (d r · (∑ j, a r j · (d j · XW j f) + d r · XW r f) + b f) 0.
-/
import proofs.«150998_j28157805593140_2_alg».proof.Proof.RunVals
import proofs.«150998_j28157805593140_2_alg».proof.Proof.R1Final

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The layer's entry from the region's four arrays, when those are the degree scale, the transformed features and the
    bias row of the arguments, is the kernel-form layer of the arguments. -/
theorem outRow_kernelOut (X : Cert.Gcn.SNC.Idx → EReal) (A : Cert.Gcn.SNN.Idx → EReal) (W : Cert.Gcn.SCF.Idx → EReal) (b : Cert.Gcn.SF.Idx → EReal)
    (r : Fin 16384) (f : Fin 128) :
    outRow A (fun i => Cert.Gcn.dK A (i 0)) (fun i => Cert.Gcn.xw X W (i 0) (i 1)) (fun i => b (ix1 (i 1))) r f
      = Cert.Gcn.kernelOut X A W b (ix2 r f) := by
  unfold outRow nbrAt nbrTerm Cert.Gcn.kernelOut Cert.Gcn.nbrK
  rfl

/-- THE KERNEL'S RESULT: what region 1's write-backs leave in the result array is the kernel-form layer of the
    argument arrays. -/
theorem kernel_value (c : Dev nD) :
    X3 m c = Cert.Gcn.kernelOut (m ((c : Thread nD τ).loc main_arg0)) (m ((c : Thread nD τ).loc main_arg1))
      (m ((c : Thread nD τ).loc main_arg2)) (m ((c : Thread nD τ).loc main_arg3)) := by
  unfold X3
  rw [final1 (VB m) c, VB_arg1, VB_v0, VB_v1, VB_v2]
  funext i
  obtain ⟨r, f, rfl⟩ : ∃ (r : Fin 16384) (f : Fin 128), i = ix2 r f := ⟨i 0, i 1, eq_ix2 i⟩
  exact outRow_kernelOut _ _ _ _ r f

end Cert.KernelIdeal.Hand

end
-- ==== Proof.Algebra.lean ====
/-
  The kernel's form of the layer equals the reference's form when every entry is a real number and
  every degree is positive.

  Under these hypotheses every quantity in sight is the image of a real number: the degrees agree
  (the row sum of a + I is the row sum of a plus the one diagonal 1), the reciprocal square root and
  the quotient 1 / sqrt are the same real (√deg)⁻¹, the products X · W are finite sums of real products,
  and what is left is the identity

      d r * ((∑ j, a r j * (d j * xw j)) + d r * xw r) = ∑ j, ((a r j + δ r j) * d r * d j) * xw j

  of real numbers, in which the Kronecker δ picks the term j = r out of the sum.
-/
import proofs.«150998_j28157805593140_2_alg».proof.Proof.Spec
import Mathlib.Data.EReal.Basic
import Mathlib.Algebra.BigOperators.Ring.Finset
import Mathlib.Analysis.SpecialFunctions.Sqrt

noncomputable section

open scoped BigOperators

namespace Cert.Gcn

open Idealize.ShloMosaic Idealize.ShloMosaic.ValueIdx

/-- The embedding of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of a row of a + I is the sum of the row of a, plus 1. -/
theorem sum_add_delta {ι : Type*} [Fintype ι] [DecidableEq ι] (a : ι → ℝ) (r : ι) :
    (∑ j, (a j + if r = j then (1 : ℝ) else 0)) = (∑ j, a j) + 1 := by
  rw [Finset.sum_add_distrib, Finset.sum_ite_eq, if_pos (Finset.mem_univ r)]

/-- The identity of real numbers that joins the two forms: the δ term of the normalised matrix is the
    self-loop term the kernel adds after its neighbour sum. -/
theorem real_identity {ι : Type*} [Fintype ι] [DecidableEq ι] (a d xw : ι → ℝ) (r : ι) :
    d r * ((∑ j, a j * (d j * xw j)) + d r * xw r)
      = ∑ j, ((a j + if r = j then (1 : ℝ) else 0) * d r * d j) * xw j := by
  have hterm : ∀ j, ((a j + if r = j then (1 : ℝ) else 0) * d r * d j) * xw j
      = d r * (a j * (d j * xw j)) + (if r = j then d r * (d j * xw j) else 0) := by
    intro j
    split_ifs <;> ring
  simp only [hterm, Finset.sum_add_distrib, Finset.sum_ite_eq, Finset.mem_univ, if_true, ← Finset.mul_sum]
  ring

section Real

variable (x : SNC.Idx → ℝ) (a : SNN.Idx → ℝ) (w : SCF.Idx → ℝ)

/-- The real degree: the row sum plus 1. -/
def degReal (r : Fin 16384) : ℝ := (∑ j : Fin 16384, a (ix2 r j)) + 1

/-- The real D^{-1/2}. -/
def dReal (r : Fin 16384) : ℝ := (Real.sqrt (degReal a r))⁻¹

/-- The real X · W. -/
def xwReal (r : Fin 16384) (f : Fin 128) : ℝ := ∑ c : Fin 128, x (ix2 r c) * w (ix2 c f)

theorem eye_coe (r j : Fin 16384) : eye r j = ((if r = j then (1 : ℝ) else 0 : ℝ) : EReal) := by
  unfold eye
  by_cases hrj : r = j
  · subst hrj
    rw [if_pos rfl, if_pos rfl, EReal.coe_one]
  · have hv : ¬ r.val = j.val := fun e => hrj (Fin.ext e)
    rw [if_neg hv, if_neg hrj, EReal.coe_zero]

theorem xw_coe (r : Fin 16384) (f : Fin 128) :
    xw (fun i => (x i : EReal)) (fun i => (w i : EReal)) r f = (xwReal x w r f : EReal) := by
  unfold xw xwReal
  rw [coe_sum]
  exact Finset.sum_congr rfl fun c _ => (EReal.coe_mul _ _).symm

theorem degK_coe (r : Fin 16384) : degK (fun i => (a i : EReal)) r = (degReal a r : EReal) := by
  unfold degK degReal
  rw [EReal.coe_add, coe_sum, EReal.coe_one]

theorem degR_coe (r : Fin 16384) : degR (fun i => (a i : EReal)) r = (degReal a r : EReal) := by
  unfold degR degReal
  rw [← sum_add_delta (fun j => a (ix2 r j)) r, coe_sum]
  refine Finset.sum_congr rfl fun j _ => ?_
  rw [eye_coe, ← EReal.coe_add]

variable {a}

theorem dK_coe {r : Fin 16384} (hpos : 0 < degReal a r) :
    dK (fun i => (a i : EReal)) r = (dReal a r : EReal) := by
  unfold dK dReal
  rw [degK_coe, Ideal.rsqrt_coe, if_neg (not_lt.2 hpos.le), if_neg hpos.ne']

theorem dR_coe {r : Fin 16384} (hpos : 0 < degReal a r) :
    dR (fun i => (a i : EReal)) r = (dReal a r : EReal) := by
  unfold dR dReal
  have hs : Real.sqrt (degReal a r) ≠ 0 := (Real.sqrt_pos.2 hpos).ne'
  rw [degR_coe, Ideal.sqrt_coe, if_neg (not_lt.2 hpos.le), Ideal.div_coe hs, one_mul, one_div]

/-- The neighbour sum on real arguments. -/
theorem nbrK_coe (hpos : ∀ r, 0 < degReal a r) (r : Fin 16384) (f : Fin 128) :
    nbrK (fun i => (x i : EReal)) (fun i => (a i : EReal)) (fun i => (w i : EReal)) r f
      = ((∑ j : Fin 16384, a (ix2 r j) * (dReal a j * xwReal x w j f) : ℝ) : EReal) := by
  unfold nbrK
  rw [coe_sum]
  refine Finset.sum_congr rfl fun j _ => ?_
  beta_reduce
  rw [dK_coe (hpos j), xw_coe, ← EReal.coe_mul, ← EReal.coe_mul]

/-- The product of the normalised matrix's row with a column of X · W, on real arguments. -/
theorem normR_sum_coe (hpos : ∀ r, 0 < degReal a r) (r : Fin 16384) (f : Fin 128) :
    (∑ j : Fin 16384, normR (fun i => (a i : EReal)) r j * xw (fun i => (x i : EReal)) (fun i => (w i : EReal)) j f)
      = ((∑ j : Fin 16384, ((a (ix2 r j) + if r = j then (1 : ℝ) else 0) * dReal a r * dReal a j)
          * xwReal x w j f : ℝ) : EReal) := by
  rw [coe_sum]
  refine Finset.sum_congr rfl fun j _ => ?_
  unfold normR
  beta_reduce
  rw [dR_coe (hpos r), dR_coe (hpos j), xw_coe, eye_coe, ← EReal.coe_add, ← EReal.coe_mul, ← EReal.coe_mul,
    ← EReal.coe_mul]

/-- The two forms' sums agree, entry by entry, on real arguments with positive degrees. -/
theorem key_coe (hpos : ∀ r, 0 < degReal a r) (r : Fin 16384) (f : Fin 128) :
    dK (fun i => (a i : EReal)) r
        * (nbrK (fun i => (x i : EReal)) (fun i => (a i : EReal)) (fun i => (w i : EReal)) r f
          + dK (fun i => (a i : EReal)) r * xw (fun i => (x i : EReal)) (fun i => (w i : EReal)) r f)
      = ∑ j : Fin 16384, normR (fun i => (a i : EReal)) r j
        * xw (fun i => (x i : EReal)) (fun i => (w i : EReal)) j f := by
  rw [nbrK_coe x w hpos, normR_sum_coe x w hpos, dK_coe (hpos r), xw_coe, ← EReal.coe_mul, ← EReal.coe_add,
    ← EReal.coe_mul]
  exact congrArg _ (real_identity (fun j => a (ix2 r j)) (dReal a) (fun j => xwReal x w j f) r)

/-- The two forms agree on real arguments with positive degrees. -/
theorem kernelOut_eq_refOut_real (β : SF.Idx → ℝ) (hpos : ∀ r, 0 < degReal a r) :
    kernelOut (fun i => (x i : EReal)) (fun i => (a i : EReal)) (fun i => (w i : EReal)) (fun i => (β i : EReal))
      = refOut (fun i => (x i : EReal)) (fun i => (a i : EReal)) (fun i => (w i : EReal)) (fun i => (β i : EReal)) := by
  funext i
  exact congrArg (fun t : EReal => max (t + (β (ix1 (i 1)) : EReal)) 0) (key_coe x w hpos (i 0) (i 1))

end Real

/-- The kernel's form of the layer equals the reference's form on the domain the precondition describes. -/
theorem kernelOut_eq_refOut (X : SNC.Idx → EReal) (A : SNN.Idx → EReal) (W : SCF.Idx → EReal) (b : SF.Idx → EReal)
    (h : Dom X A W b) : kernelOut X A W b = refOut X A W b := by
  obtain ⟨x, rfl⟩ : ∃ x : SNC.Idx → ℝ, X = fun i => (x i : EReal) :=
    ⟨fun i => (X i).toReal, funext fun i => (EReal.coe_toReal (h.finX i).1 (h.finX i).2).symm⟩
  obtain ⟨a, rfl⟩ : ∃ a : SNN.Idx → ℝ, A = fun i => (a i : EReal) :=
    ⟨fun i => (A i).toReal, funext fun i => (EReal.coe_toReal (h.finA i).1 (h.finA i).2).symm⟩
  obtain ⟨w, rfl⟩ : ∃ w : SCF.Idx → ℝ, W = fun i => (w i : EReal) :=
    ⟨fun i => (W i).toReal, funext fun i => (EReal.coe_toReal (h.finW i).1 (h.finW i).2).symm⟩
  obtain ⟨β, rfl⟩ : ∃ β : SF.Idx → ℝ, b = fun i => (β i : EReal) :=
    ⟨fun i => (b i).toReal, funext fun i => (EReal.coe_toReal (h.finb i).1 (h.finb i).2).symm⟩
  refine kernelOut_eq_refOut_real x w β fun r => ?_
  have hp := h.degPos r
  rw [degR_coe] at hp
  exact EReal.coe_pos.1 hp

end Cert.Gcn

end
-- ==== Proof.Eye.lean ====
/-
  The identity matrix's entry as the printed programs compute it: the row number and the column number, as 32-bit
  words, are compared for equality and the one-bit answer is converted to a float. Both numbers are below 16384,
  far below 2^32, so the words are equal exactly when the numbers are; the answer read as a number is 1 or 0.
-/
import proofs.«150998_j28157805593140_2_alg».proof.Proof.Spec
import Idealize.ShloMosaic.Lib.Affine
import Idealize.ShloMosaic.Lib.ValueIdx

noncomputable section

namespace Cert.Gcn

open Idealize.ShloMosaic Idealize.ShloMosaic.ValueIdx

/-- Two numbers below 16384 are equal as 32-bit words exactly when they are equal. -/
theorem ofNat_eq_iff (r k : Fin 16384) : BitVec.ofNat 32 r.val = BitVec.ofNat 32 k.val ↔ r.val = k.val := by
  constructor
  · intro h
    have h' := congrArg BitVec.toNat h
    rw [BitVec.toNat_ofNat, BitVec.toNat_ofNat] at h'
    have hr := r.isLt
    have hk := k.isLt
    omega
  · intro h
    rw [h]

/-- The compared-and-converted entry is the identity matrix's. -/
theorem eye_word (r k : Fin 16384) :
    FloatOps.uitofp (F := Ideal) .f32 (IntOp.cmpi .eq (BitVec.ofNat 32 r.val) (BitVec.ofNat 32 k.val)) = eye r k := by
  unfold eye
  by_cases h : r.val = k.val
  · have hc : IntOp.cmpi .eq (BitVec.ofNat 32 r.val) (BitVec.ofNat 32 k.val) = 1#1 :=
      IntOp.cmpi_eq.2 ((ofNat_eq_iff r k).2 h)
    rw [hc, if_pos h]
    show (((1#1 : BitVec 1).toNat : ℝ) : EReal) = 1
    simp
  · have hc : IntOp.cmpi .eq (BitVec.ofNat 32 r.val) (BitVec.ofNat 32 k.val) = 0#1 :=
      eq_zero_of_ne_one fun e => h ((ofNat_eq_iff r k).1 (IntOp.cmpi_eq.1 e))
    rw [hc, if_neg h]
    show (((0#1 : BitVec 1).toNat : ℝ) : EReal) = 0
    simp

/-- The same with the row number written as itself plus the word 0. -/
theorem eye_word_add_zero (r k : Fin 16384) :
    FloatOps.uitofp (F := Ideal) .f32
      (IntOp.cmpi .eq (IntOp.addi (BitVec.ofNat 32 r.val) 0#32) (BitVec.ofNat 32 k.val)) = eye r k := by
  have h0 : IntOp.addi (BitVec.ofNat 32 r.val) 0#32 = BitVec.ofNat 32 r.val := by
    unfold IntOp.addi
    exact BitVec.add_zero _
  rw [h0, eye_word]

end Cert.Gcn

end
-- ==== Proof.PreDom.lean ====
/-
  From the printed precondition to the domain of the algebra.

  The precondition is a conjunction of five one-bit answers. Four say, of one argument each, that every entry's absolute
  value is below +∞: an extended real with |x| < ⊤ is neither ⊤ nor ⊥ (at ⊥ the absolute value max x (-x) is ⊤).
  The fifth says that every row sum of a + I, added up from 0, is above 0: read at a row, that sum is the degree of the
  reference's form.
-/
import proofs.«150998_j28157805593140_2_alg».proof.Proof.Eye
import proofs.«150998_j28157805593140_2_alg».proof.Proof.Gen.Pre_finite_inputs
import Idealize.ShloMosaic.Lib.ReduceAll
import Idealize.ShloMosaic.Lib.IdealHost
import Idealize.ShloMosaic.PureOps.Ideal.Laws

noncomputable section

open scoped BigOperators

namespace Cert.Gcn

open Idealize.ShloMosaic Idealize.ShloMosaic.ValueIdx
open Cert.Pre_finite_inputs (S_ S16384 S16384x16384 S16384x128 S128x128 S128)

instance : Subsingleton S_.Idx := ⟨fun a b => funext fun d => d.elim0⟩

/-- An extended real whose absolute value is below +∞ is a real number. -/
theorem fin_of_abs_lt (x : EReal) (hx : Ideal.cmp .olt (max x (-x)) (Ideal.ofBits .f32 0x7F800000#32) = 1#1) :
    x ≠ ⊤ ∧ x ≠ ⊥ := by
  have hinf : Ideal.ofBits .f32 0x7F800000#32 = ⊤ := by simp [Ideal.ofBits, Ideal.ieee]
  rw [hinf] at hx
  induction x using EReal.rec with
  | bot => simp [Ideal.cmp] at hx
  | top => simp [Ideal.cmp] at hx
  | coe r => exact ⟨EReal.coe_ne_top r, EReal.coe_ne_bot r⟩

/-- One entry's test, read at its index. -/
theorem entry_fin {S : Shape} (hb : S_.BroadcastsInDim S ![]) (a : FVec Ideal S .f32) (i : S.Idx)
    (hx : cmpf .olt (Host.absf a) (broadcastInDim S ![] hb (constant S_ .f32 0x7F800000#32)) i = 1#1) :
    a i ≠ ⊤ ∧ a i ≠ ⊥ := by
  rw [cmpf_apply, broadcastInDim_scalar_apply, constant_apply] at hx
  exact fin_of_abs_lt (a i) hx

/-- A comparison "above 0" that answers 1. -/
theorem pos_of_ogt (x : EReal) (h : Ideal.cmp .ogt x 0 = 1#1) : 0 < x := by
  by_contra hn
  change BitVec.ofBool (decide (0 < x)) = 1#1 at h
  rw [decide_eq_false hn] at h
  exact absurd h (by decide)

/-- The index the row sum inserts on the summed axis is (row, column). -/
theorem row_lift (hR : S16384x16384.Reduces [1] S16384) (r : Fin 16384) (k : Fin (S16384x16384.size 1)) :
    hR.lift (ix1 r) k = ix2 r (⟨k.val, k.isLt⟩ : Fin 16384) := by
  funext d
  match d with
  | ⟨0, _⟩ => exact Fin.ext rfl
  | ⟨1, _⟩ => exact Fin.ext rfl

/-- The fifth conjunct at a row: the degree of the reference's form is positive. -/
theorem degR_pos_of (hred : S16384x16384.ReducesTo [1] S16384) (hu : 0 < S_.numel)
    (hb0 : S_.BroadcastsInDim S16384x16384 ![]) (hb1 : S_.BroadcastsInDim S16384 ![])
    (a1 : FVec Ideal S16384x16384 .f32) (r : Fin 16384)
    (h : cmpf .ogt
        (Host.reduceAdd
          (addf a1 (uitofp .f32 (cmpi .eq
            (addi (iotaInDim S16384x16384 32 0) (broadcastInDim S16384x16384 ![] hb0 (constantI S_ 32 0#32)))
            (iotaInDim S16384x16384 32 1))))
          (constant S_ .f32 0#32) hred hu)
        (broadcastInDim S16384 ![] hb1 (constant S_ .f32 0#32)) (ix1 r) = 1#1) :
    0 < degR a1 r := by
  have hR : S16384x16384.Reduces [1] S16384 := by decide
  rw [cmpf_apply, hostReduceAdd_apply, Ideal.hostReduceAdd_single hred hR, broadcastInDim_scalar_apply,
    constant_apply, constant_apply, Ideal.ofBits_zero_f32, zero_add] at h
  have hpos := pos_of_ogt _ h
  have hsum : (∑ k : Fin (S16384x16384.size 1),
      addf a1 (uitofp .f32 (cmpi .eq
        (addi (iotaInDim S16384x16384 32 0) (broadcastInDim S16384x16384 ![] hb0 (constantI S_ 32 0#32)))
        (iotaInDim S16384x16384 32 1))) (hR.lift (ix1 r) k)) = degR a1 r := by
    unfold degR
    refine Finset.sum_congr rfl fun k _ => ?_
    rw [row_lift hR r k]
    exact congrArg (fun t => a1 (ix2 r ⟨k.val, k.isLt⟩) + t) (eye_word_add_zero r ⟨k.val, k.isLt⟩)
  rw [hsum] at hpos
  exact hpos

/-- The precondition, decoded. -/
theorem dom_of_pre [Cert.Pre_finite_inputs.Facts]
    (a0 : FVec Ideal S16384x128 .f32) (a1 : FVec Ideal S16384x16384 .f32)
    (a2 : FVec Ideal S128x128 .f32) (a3 : FVec Ideal S128 .f32)
    (h : Cert.Pre_finite_inputs.fn (F := Ideal) a0 a1 a2 a3 = fun _ => 1#1) : Dom a0 a1 a2 a3 := by
  have h0 := congrFun h ValueIdx.ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => ?_, fun i => ?_, fun i => ?_, fun i => ?_, fun r => ?_⟩
  · exact entry_fin _ a0 i (Host.reduce_andi_all _ _ _ _ _ h1 i)
  · exact entry_fin _ a1 i (Host.reduce_andi_all _ _ _ _ _ h2 i)
  · exact entry_fin _ a2 i (Host.reduce_andi_all _ _ _ _ _ h3 i)
  · exact entry_fin _ a3 i (Host.reduce_andi_all _ _ _ _ _ h4 i)
  · exact degR_pos_of _ _ _ _ a1 r (Host.reduce_andi_all _ _ _ _ _ h5 (ix1 r))

end Cert.Gcn

end
-- ==== Proof.RefValue.lean ====
/-
  The reference program's result, read index by index at the exact (extended-real) instance.

  The program forms a + I (the identity by comparing the row number with the column number), sums its rows into the
  degrees, takes d = 1 / sqrt of them, scales the entry (r, k) of a + I by d r and then by d k, multiplies the scaled
  matrix with X · W, adds the bias along the rows and clamps at 0. Read at an index, each stage is the matching
  quantity of the reference's form: the entry, the degree, D^{-1/2}, the normalised entry, the product X · W, the
  neighbour sum, and at the end the layer's value.
-/
import proofs.«150998_j28157805593140_2_alg».proof.Proof.Gen.ReferenceIdeal.Run
import proofs.«150998_j28157805593140_2_alg».proof.Proof.Gen.ReferenceIdeal.Read
import proofs.«150998_j28157805593140_2_alg».proof.Proof.Eye
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read Cert.Gcn

variable (x0 : (⟨S16384x128, .f32⟩ : BufTy).Contents (Elt Ideal)) (x1 : (⟨S16384x16384, .f32⟩ : BufTy).Contents (Elt Ideal))
  (x2 : (⟨S128x128, .f32⟩ : BufTy).Contents (Elt Ideal)) (x3 : (⟨S128, .f32⟩ : BufTy).Contents (Elt Ideal))

/-! ## The indices the stages read their operands at -/

theorem idx7_eq (r k : Fin 16384) : idx_main_v7 (ix1 r) k = ix2 r k :=
  funext fun a => Fin.ext (by match a with | ⟨0, _⟩ => rfl | ⟨1, _⟩ => rfl)

theorem idx11_12_eq (r k : Fin 16384) : idx_main_v11 (idx_main_v12 (ix2 r k)) = ix1 r :=
  funext fun a => Fin.ext (by match a with | ⟨0, _⟩ => rfl)

theorem idx14_15_eq (r k : Fin 16384) : idx_main_v14 (idx_main_v15 (ix2 r k)) = ix1 k :=
  funext fun a => Fin.ext (by match a with | ⟨0, _⟩ => rfl)

theorem lidx17_eq (k : Fin 16384) (f c : Fin 128) : lidx_main_v17 (ix2 k f) c = ix2 k c :=
  funext fun a => Fin.ext (by match a with | ⟨0, _⟩ => rfl | ⟨1, _⟩ => rfl)

theorem ridx17_eq (k : Fin 16384) (f c : Fin 128) : ridx_main_v17 (ix2 k f) c = ix2 c f :=
  funext fun a => Fin.ext (by match a with | ⟨0, _⟩ => rfl | ⟨1, _⟩ => rfl)

theorem lidx18_eq (r k : Fin 16384) (f : Fin 128) : lidx_main_v18 (ix2 r f) k = ix2 r k :=
  funext fun a => Fin.ext (by match a with | ⟨0, _⟩ => rfl | ⟨1, _⟩ => rfl)

theorem ridx18_eq (r k : Fin 16384) (f : Fin 128) : ridx_main_v18 (ix2 r f) k = ix2 k f :=
  funext fun a => Fin.ext (by match a with | ⟨0, _⟩ => rfl | ⟨1, _⟩ => rfl)

theorem idx19_20_eq (r : Fin 16384) (f : Fin 128) : idx_main_v19 (idx_main_v20 (ix2 r f)) = ix1 f :=
  funext fun a => Fin.ext (by match a with | ⟨0, _⟩ => rfl)

/-! ## The stages -/

/-- The entry (r, k) of a + I. -/
theorem v6_at (r k : Fin 16384) : val_main_v6 (F := Ideal) x1 (ix2 r k) = x1 (ix2 r k) + eye r k :=
  congrArg (fun t => x1 (ix2 r k) + t) (eye_word_add_zero r k)

/-- The row sum of a + I, from 0: the degree. -/
theorem v7_at (r : Fin 16384) : val_main_v7 (F := Ideal) x1 (ix1 r) = degR x1 r := by
  rw [val_main_v7_apply, val_main_cst_apply, Ideal.ofBits_def, Ideal.ofBits_zero_f32, zero_add]
  unfold degR
  refine Finset.sum_congr rfl fun k _ => ?_
  rw [idx7_eq, v6_at]

/-- 1 / sqrt of the degree. -/
theorem v10_at (r : Fin 16384) : val_main_v10 (F := Ideal) x1 (ix1 r) = dR x1 r := by
  rw [val_main_v10_apply, val_main_v9_apply, val_main_cst_0_apply, val_main_v8_apply, v7_at, Ideal.ofBits_def,
    Ideal.ofBits_one_f32, Ideal.hostDivf_def, Ideal.hostUnary_sqrt_def]
  rfl

/-- The entry scaled by its row's and its column's factor. -/
theorem v16_at (r k : Fin 16384) : val_main_v16 (F := Ideal) x1 (ix2 r k) = normR x1 r k := by
  rw [val_main_v16_apply, val_main_v13_apply, val_main_v12_apply, val_main_v11_apply, val_main_v15_apply,
    val_main_v14_apply, idx11_12_eq, idx14_15_eq, v6_at, v10_at, v10_at, Ideal.mulf_def, Ideal.mulf_def]
  rfl

/-- X · W at (k, f). -/
theorem v17_at (k : Fin 16384) (f : Fin 128) : val_main_v17 (F := Ideal) x0 x2 (ix2 k f) = xw x0 x2 k f := by
  rw [val_main_v17_apply]
  unfold xw
  refine Finset.sum_congr rfl fun c _ => ?_
  rw [lidx17_eq, ridx17_eq]

/-- The normalised matrix times X · W at (r, f). -/
theorem v18_at (r : Fin 16384) (f : Fin 128) :
    val_main_v18 (F := Ideal) x0 x1 x2 (ix2 r f) = ∑ k : Fin 16384, normR x1 r k * xw x0 x2 k f := by
  rw [val_main_v18_apply]
  refine Finset.sum_congr rfl fun k _ => ?_
  rw [lidx18_eq, ridx18_eq, v16_at, v17_at]

/-- The bias along the rows. -/
theorem v20_at (r : Fin 16384) (f : Fin 128) : val_main_v20 (F := Ideal) x3 (ix2 r f) = x3 (ix1 f) := by
  rw [val_main_v20_apply, val_main_v19_apply, idx19_20_eq]

/-- The clamp's floor. -/
theorem relu0_at (i : S16384x128.Idx) : val_main_call0_v0 (F := Ideal) i = 0 := by
  rw [val_main_call0_v0_apply, val_main_call0_cst_apply, Ideal.ofBits_def, Ideal.ofBits_zero_f32]

/-- The layer's value at (r, f). -/
theorem v22_at (r : Fin 16384) (f : Fin 128) :
    val_main_v22 (F := Ideal) x0 x1 x2 x3 (ix2 r f)
      = max ((∑ k : Fin 16384, normR x1 r k * xw x0 x2 k f) + x3 (ix1 f)) 0 := by
  rw [val_main_v22_apply, val_main_v21_apply, v18_at, v20_at, relu0_at, Ideal.maximumf_def, Ideal.addf_def]

/-- The reference program's last stage is the reference's form of the layer. -/
theorem val_main_v22_eq_refOut : val_main_v22 (F := Ideal) x0 x1 x2 x3 = Cert.Gcn.refOut x0 x1 x2 x3 := by
  funext i
  exact (congrArg (val_main_v22 (F := Ideal) x0 x1 x2 x3) (eq_ix2 i)).trans (v22_at x0 x1 x2 x3 (i 0) (i 1))

end Cert.ReferenceIdeal.RefValue

end
-- ==== Proof.lean ====
/-
  A dense graph-convolution layer over 16384 nodes with 128 input and 128 output features:

      out = max (D^{-1/2} (A + I) D^{-1/2} · (X · W) + b) 0,      D = diag (row sums of A + I).

  The kernel computes d = rsqrt (row sum of A, plus 1) in a first pass over row blocks of A; the product X · W is
  formed on the host; a second pass forms, for each 1024-row tile of the result, the neighbour sum
  ∑ j, A r j · (d j · XW j f) with the column scaling folded into the right factor, added up over 8 column blocks of
  2048 into an accumulator that starts at 0, and then adds the self-loop term d r · XW r f, scales the row by d r,
  adds the bias and clamps at 0. The reference forms the matrix (A + I) r j · d r · d j, with d = 1 / sqrt of the
  row sums of A + I, multiplies it with X · W, adds the bias and clamps.

  On the extended reals the two results are equal wherever every entry of the four arguments is a real number and
  every degree is positive: then the two degrees are one positive real, the two spellings of D^{-1/2} are one real,
  and the kernel's order of scaling and summing is the reference's by distributivity, the identity's entry picking
  the self-loop term out of the sum. The precondition says exactly that: every entry's absolute value is below +∞,
  and every row sum of A + I is above 0.

  The five claims: each of the three programs runs and leaves its arguments as launched; the program read at the
  extended reals is the bit-level program's own text (no operation was rewritten); and from memories that agree on
  the arguments, the program at the extended reals and the reference end with equal results.
-/
import proofs.«150998_j28157805593140_2_alg».proof.Defs
import proofs.«150998_j28157805593140_2_alg».proof.Proof.Gen.Kernel
import proofs.«150998_j28157805593140_2_alg».proof.Proof.Gen.KernelIdeal
import proofs.«150998_j28157805593140_2_alg».proof.Proof.Gen.ReferenceIdeal
import proofs.«150998_j28157805593140_2_alg».proof.Proof.Gen.Pre_finite_inputs
import proofs.«150998_j28157805593140_2_alg».proof.Proof.Gen.ReferenceIdeal.Run
import proofs.«150998_j28157805593140_2_alg».proof.Proof.Gen.ReferenceIdeal.Read
import proofs.«150998_j28157805593140_2_alg».proof.Proof.BitsRunAll
import proofs.«150998_j28157805593140_2_alg».proof.Proof.RunAll
import proofs.«150998_j28157805593140_2_alg».proof.Proof.KernelValue
import proofs.«150998_j28157805593140_2_alg».proof.Proof.Algebra
import proofs.«150998_j28157805593140_2_alg».proof.Proof.PreDom
import proofs.«150998_j28157805593140_2_alg».proof.Proof.RefValue
import Idealize.ShloMosaic.Adequacy
import Idealize.ShloMosaic.Init

noncomputable section

namespace Cert.Proof

open Idealize.ShloMosaic Idealize.SL.Sem

/-- The bit-level program runs and leaves its arguments as launched. -/
theorem frame_bits : Cert.frame_Kernel := fun m ρ _ => Cert.Kernel.Hand.frame m ρ

/-- The program at the extended reals runs and leaves its arguments as launched. -/
theorem frame_ideal : Cert.frame_KernelIdeal := fun m ρ _ => Cert.KernelIdeal.Hand.frame m ρ

/-- The reference runs and leaves its arguments as launched: its run, with the result's value dropped. -/
theorem frame_ref : Cert.frame_ReferenceIdeal := fun m ρ _ =>
  (θ_run Cert.ReferenceIdeal.defs _ _).mono (fun _ h c => (h c).2) (Cert.ReferenceIdeal.Value.run (F := Ideal) m ρ)

/-- No operation was rewritten between the two readings of the kernel. -/
theorem preserves : Cert.preserves_Kernel_KernelIdeal := trivial

/-- Both programs end at the layer in the kernel's form, of the kernel's arguments: the kernel by its value, the
    reference because its last stage is the layer in the reference's form, the arguments agree, and the two forms
    are equal on the domain the precondition describes. -/
theorem algebraic : Cert.algebraic_KernelIdeal_ReferenceIdeal := by
  intro m ρ m' ρ' hpre hagree
  refine ⟨fun c => Cert.Gcn.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.kernel_value m c), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v22_eq, Cert.ReferenceIdeal.RefValue.val_main_v22_eq_refOut,
      (hagree c).1, (hagree c).2.1, (hagree c).2.2.1, (hagree c).2.2.2]
    exact (Cert.Gcn.kernelOut_eq_refOut _ _ _ _ (Cert.Gcn.dom_of_pre _ _ _ _ (hpre c))).symm

theorem claim : Cert.Claim :=
  ⟨Cert.Kernel.Gen.facts, Cert.KernelIdeal.Gen.facts, Cert.ReferenceIdeal.Gen.facts, Cert.Pre_finite_inputs.Gen.facts,
    frame_bits, frame_ideal, frame_ref, preserves, algebraic⟩

end Cert.Proof

end
